-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S128 .f32) (main_arg4 : IVec S600000 32) (main_arg5 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S10000x128 : Shape := ⟨2, ![10000, 128]⟩
abbrev S10000x1 : Shape := ⟨2, ![10000, 1]⟩
abbrev S10000 : Shape := ⟨1, ![10000]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S50000, .f32⟩
  | .hbm, ⟨10, _⟩ => ⟨S600000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  reduces_S10000x128_S128 : S10000x128.Reduces [0] S128
  shapeCasts_S128_S1x128 : S128.ShapeCasts S1x128
  bcast_S_S1x128 : S_.BroadcastsInDim S1x128 (![] : Fin 0 → Fin S1x128.rank)
  broadcasts_S1x128_S10000x128 : S1x128.Broadcasts S10000x128
  reduces_S10000x128_S10000 : S10000x128.Reduces [1] S10000
  shapeCasts_S10000_S10000x1 : S10000.ShapeCasts S10000x1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S50000x128.size a
  hwx1_7 : ∀ i : grid1.Coords, EltTy.bits .f32 = 32 ∨ (Rect.block (s := S50000x128) S10000x128.size (cc1_transform_7 i) (hinb1_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S50000, .f32⟩
  | .hbm, ⟨10, _⟩ => ⟨S600000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result array named.

  The program is two pipelined regions among stretches of host operations.  Its buffer contents are followed
  boundary by boundary from the launch memory: after a stretch, the stretch's operations applied; after a
  region, the region's arrays at what its write-backs leave and every other buffer as entered.  Every weakly
  fair execution terminates, nothing faults, the result array ends at the last boundary's contents and the
  six argument arrays end as launched.
-/
import proofs.«181153_j61847529063045_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the
    contents of the last boundary of the fold through the program, and the arguments are as launched. -/
theorem run_value : θ_run defs (onTc (τ := τ) (main (F := F))) ⟨m, fun _ => 0, ρ⟩ (fun r => ∀ c : Dev nD,
      r.2.mem ((c.tc : Thread nD τ).loc main_v36) = W8 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v36 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibLastRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.Spec.lean ====
/-
  The mathematics both programs compute, stated once over the extended reals.

  A node-by-feature array `X` (50000 rows, 128 columns) is standardized column by column, scaled and shifted
  by per-column weights, rectified, and every row is then divided by its Euclidean length (not below a small
  floor).  The column statistics come in two spellings:

  * over the whole column: the mean is `(∑ₚ X p q) / N` and the variance the mean of the squared deviations
    `(∑ₚ (X p q - mean q)²) / N`;
  * in one pass over five stretches of 10000 rows: running sums of `X p q` and of `(X p q)²` are kept stretch
    by stretch, the mean is the first sum over `N`, and the variance is `(∑ₚ (X p q)²) / N - (mean q)²`,
    taken not below zero.

  For real entries the two spellings agree (Proof/Moments.lean); everything after the statistics is one
  function of `X`, the mean, the variance and the weights.
-/
import Idealize.ShloMosaic.PureOps.Ideal
import Mathlib.Algebra.BigOperators.Fin

noncomputable section

namespace Cert.NormSpec

open Idealize.ShloMosaic
open scoped BigOperators

/-- The number of rows as a float word: 50000. -/
abbrev countW : EReal := Ideal.ofBits .f32 0x47435000#32
/-- The floor added to a variance before its inverse square root. -/
abbrev epsVar : EReal := Ideal.ofBits .f32 0x3727C5AC#32
/-- The floor under a row's length. -/
abbrev epsLen : EReal := Ideal.ofBits .f32 0x2B8CBCCC#32

/-- Row `r` of stretch `t`: row `10000·t + r` of the array. -/
def tileRow (t : Fin 5) (r : Fin 10000) : Fin 50000 :=
  ⟨10000 * t.val + r.val, by have := t.isLt; have := r.isLt; omega⟩

/-- One stretch's sum of a column. -/
def tileSum (f : Fin 50000 → EReal) (t : Fin 5) : EReal := ∑ r : Fin 10000, f (tileRow t r)

/-- The running sum after stretch `n`: the stretches' sums added in order. -/
def runSum (f : Fin 50000 → EReal) : (n : ℕ) → n < 5 → EReal
  | 0, h => tileSum f ⟨0, h⟩
  | n + 1, h => runSum f n (Nat.lt_of_succ_lt h) + tileSum f ⟨n + 1, h⟩

variable (X : Fin 50000 → Fin 128 → EReal)

/-- One-pass mean of column `q`: the running sum after the last stretch over the count. -/
def meanTiled (q : Fin 128) : EReal := Ideal.div (runSum (fun p => X p q) 4 (by decide)) countW

/-- One-pass variance of column `q`: mean of squares less the squared mean, not below zero. -/
def varOnePass (q : Fin 128) : EReal :=
  max (Ideal.div (runSum (fun p => X p q * X p q) 4 (by decide)) countW - meanTiled X q * meanTiled X q) 0

/-- Mean of column `q` over the whole column. -/
def meanWhole (q : Fin 128) : EReal := Ideal.div (∑ p : Fin 50000, X p q) countW

/-- Variance of column `q` as the mean squared deviation. -/
def varCentered (q : Fin 128) : EReal :=
  Ideal.div (∑ p : Fin 50000, (X p q - meanWhole X q) * (X p q - meanWhole X q)) countW

/-- Standardized, scaled, shifted and rectified entry. -/
def act (mean var gam bet : Fin 128 → EReal) (p : Fin 50000) (q : Fin 128) : EReal :=
  max ((X p q - mean q) * Ideal.rsqrt (var q + epsVar) * gam q + bet q) 0

/-- A row's Euclidean length, not below the floor. -/
def rowLen (y : Fin 50000 → Fin 128 → EReal) (p : Fin 50000) : EReal :=
  max (Ideal.sqrt (∑ q : Fin 128, y p q * y p q)) epsLen

/-- The result: the rectified entry over its row's length. -/
def normed (mean var gam bet : Fin 128 → EReal) (p : Fin 50000) (q : Fin 128) : EReal :=
  Ideal.div (act X mean var gam bet p q) (rowLen (act X mean var gam bet) p)

end Cert.NormSpec

end
-- ==== Proof.TileMath.lean ====
/-
  The two kernel bodies' arithmetic on one stretch of 10000 rows, read entry by entry over the extended reals.

  A stretch's projection: row `r` of the aggregate block is scaled by the row's own weight (a column vector
  repeated over the 128 features) and multiplied with the weight matrix, so entry `(r, q)` is
  `∑ₖ (a r k · d r) · w k q`.  The statistics body adds, to the running column sums it finds, the stretch's
  column sums of the projection and of its squares.  The second body standardizes the projection with the
  column means and variances it is handed, scales, shifts and rectifies it, and divides every row by its
  Euclidean length (not below the floor).
-/
import proofs.«181153_j61847529063045_2_alg».proof.Proof.Gen.KernelIdeal.Skeleton
import proofs.«181153_j61847529063045_2_alg».proof.Proof.LibPlainDot
import proofs.«181153_j61847529063045_2_alg».proof.Proof.LibCols
import proofs.«181153_j61847529063045_2_alg».proof.Proof.LibLastRows
import proofs.«181153_j61847529063045_2_alg».proof.Proof.LibLayout
import proofs.«181153_j61847529063045_2_alg».proof.Proof.LibRow
import proofs.«181153_j61847529063045_2_alg».proof.Proof.LibColsJoin
import proofs.«181153_j61847529063045_2_alg».proof.Proof.Spec
import Idealize.ShloMosaic.Lib.ValueIdx
import Idealize.ShloMosaic.Lib.Pipeline.Value
import Idealize.ShloMosaic.PureOps.Ideal.Laws

noncomputable section

namespace Cert.TileMath

open Idealize.ShloMosaic Idealize.ShloMosaic.TcCoe Idealize.ShloMosaic.ValueIdx
open Cert.KernelIdeal Cert.KernelIdeal.Gen
open scoped BigOperators

/-- Entry `(r, q)` of a stretch's projection. -/
def projTile (a : Vec Ideal S10000x128 .f32) (d : Vec Ideal S10000x1 .f32) (w : Vec Ideal S128x128 .f32)
    (r : Fin 10000) (q : Fin 128) : EReal :=
  ∑ k : Fin 128, (a (ix2 r k) * d (ix2 r (0 : Fin 1))) * w (ix2 k q)

/-- The matrix product of the row-scaled block with the weights, at an entry. -/
theorem proj_apply (a : Vec Ideal S10000x128 .f32) (d : Vec Ideal S10000x1 .f32) (w : Vec Ideal S128x128 .f32)
    (r : Fin 10000) (q : Fin 128) : k0_pay3 (F := Ideal) a d w (ix2 r q) = projTile a d w r q := by
  unfold k0_pay3 projTile
  refine (Cert.LibPlainDot.matmul_plain_apply (d := dot_S10000x128_S128x128_S10000x128_1_0_0_1_n_n) rfl rfl rfl rfl rfl rfl none _ _ r q).trans ?_
  refine Finset.sum_congr rfl fun k _ => ?_
  rw [mulf_apply, shapeCast_self, shapeCast_self, broadcastTo_a1_ab_apply]

theorem rsqrt_apply {s : Shape} {φ : FTy} (a : FVec Ideal s φ) (i : s.Idx) : rsqrt a i = Ideal.rsqrt (a i) := rfl

/-- A float word splat by the scalar unit is the same extended real as the word itself. -/
theorem scalar_word (b : BitVec 32) : (Scalar.ofBits .f32 b : Ideal .f32) = Ideal.ofBits .f32 b := rfl

/-- The running column sum: what was found plus the stretch's column sum of the projection. -/
theorem colSums_apply (a : Vec Ideal S10000x128 .f32) (d : Vec Ideal S10000x1 .f32) (w : Vec Ideal S128x128 .f32)
    (acc : Vec Ideal S1x128 .f32) (q : Fin 128) :
    k0_pay4 (F := Ideal) a d w acc (ix2 (0 : Fin 1) q)
      = acc (ix2 (0 : Fin 1) q) + ∑ r : Fin 10000, projTile a d w r q := by
  unfold k0_pay4
  rw [addf_apply, shapeCast_self]
  congr 1
  refine (Cert.LibRow.row_apply _ _ q).trans ?_
  refine (colSum_apply _ _ _ _ _ q).trans ?_
  exact Finset.sum_congr rfl fun r _ => proj_apply a d w r q

/-- The running column sum of squares. -/
theorem colSquares_apply (a : Vec Ideal S10000x128 .f32) (d : Vec Ideal S10000x1 .f32) (w : Vec Ideal S128x128 .f32)
    (acc : Vec Ideal S1x128 .f32) (q : Fin 128) :
    k0_pay5 (F := Ideal) a d w acc (ix2 (0 : Fin 1) q)
      = acc (ix2 (0 : Fin 1) q) + ∑ r : Fin 10000, projTile a d w r q * projTile a d w r q := by
  unfold k0_pay5
  rw [addf_apply, shapeCast_self]
  congr 1
  refine (Cert.LibRow.row_apply _ _ q).trans ?_
  refine (colSum_apply _ _ _ _ _ q).trans ?_
  refine Finset.sum_congr rfl fun r _ => ?_
  rw [mulf_apply, proj_apply]

/-- The rectified, standardized entry `(r, q)` of a stretch, from the statistics and weights rows handed in. -/
def actTile (a : Vec Ideal S10000x128 .f32) (d : Vec Ideal S10000x1 .f32) (w : Vec Ideal S128x128 .f32)
    (mean var gam bet : Vec Ideal S1x128 .f32) (r : Fin 10000) (q : Fin 128) : EReal :=
  max ((projTile a d w r q - mean (ix2 (0 : Fin 1) q)) * Ideal.rsqrt (var (ix2 (0 : Fin 1) q) + Cert.NormSpec.epsVar)
      * gam (ix2 (0 : Fin 1) q) + bet (ix2 (0 : Fin 1) q)) 0

/-- The same as a whole block. -/
def actVec (a : Vec Ideal S10000x128 .f32) (d : Vec Ideal S10000x1 .f32) (w : Vec Ideal S128x128 .f32)
    (mean var gam bet : Vec Ideal S1x128 .f32) : FVec Ideal S10000x128 .f32 :=
  maximumf (addf (mulf (mulf (subf (k0_pay3 (F := Ideal) a d w)
      (broadcastTo S10000x128 (shapeCast S1x128 mean shapeCasts_S1x128_S1x128) broadcasts_S1x128_S10000x128))
      (broadcastTo S10000x128 (rsqrt (addf (shapeCast S1x128 var shapeCasts_S1x128_S1x128)
        (broadcast S1x128 (Scalar.ofBits .f32 0x3727C5AC#32)))) broadcasts_S1x128_S10000x128))
      (broadcastTo S10000x128 (shapeCast S1x128 gam shapeCasts_S1x128_S1x128) broadcasts_S1x128_S10000x128))
      (broadcastTo S10000x128 (shapeCast S1x128 bet shapeCasts_S1x128_S1x128) broadcasts_S1x128_S10000x128))
    (broadcast S10000x128 (Scalar.ofBits .f32 0x00000000#32))

theorem actVec_apply (a : Vec Ideal S10000x128 .f32) (d : Vec Ideal S10000x1 .f32) (w : Vec Ideal S128x128 .f32)
    (mean var gam bet : Vec Ideal S1x128 .f32) (r : Fin 10000) (q : Fin 128) :
    actVec a d w mean var gam bet (ix2 r q) = actTile a d w mean var gam bet r q := by
  unfold actVec actTile
  rw [maximumf_apply, addf_apply, mulf_apply, mulf_apply, subf_apply, proj_apply, broadcast_apply,
    Cert.LibColsJoin.bcast_row (by decide), Cert.LibColsJoin.bcast_row (by decide),
    Cert.LibColsJoin.bcast_row (by decide), Cert.LibColsJoin.bcast_row (by decide),
    rsqrt_apply, addf_apply, broadcast_apply, shapeCast_self, shapeCast_self, shapeCast_self, shapeCast_self,
    scalar_word, scalar_word, Ideal.ofBits_zero_f32]

/-- The second body's result at `(r, q)`: the rectified entry over its row's length, not below the floor. -/
theorem finish_apply (a : Vec Ideal S10000x128 .f32) (d : Vec Ideal S10000x1 .f32) (w : Vec Ideal S128x128 .f32)
    (mean var gam bet : Vec Ideal S1x128 .f32) (r : Fin 10000) (q : Fin 128) :
    k1_pay1 (F := Ideal) a d w mean var gam bet (ix2 r q)
      = Ideal.div (actTile a d w mean var gam bet r q)
          (max (Ideal.sqrt (∑ s : Fin 128, actTile a d w mean var gam bet r s * actTile a d w mean var gam bet r s))
            Cert.NormSpec.epsLen) := by
  show divf (actVec a d w mean var gam bet)
      (broadcastTo S10000x128 (maximumf (sqrt (shapeCast S10000x1
        (multiReduction .add [1] S10000 (mulf (actVec a d w mean var gam bet) (actVec a d w mean var gam bet))
          0x00000000#32 reduces_S10000x128_S10000 (.inl rfl) rfl) shapeCasts_S10000_S10000x1))
        (broadcast S10000x1 (Scalar.ofBits .f32 0x2B8CBCCC#32))) broadcasts_S10000x1_S10000x128) (ix2 r q) = _
  rw [divf_apply, actVec_apply, broadcastTo_a1_ab_apply, maximumf_apply, sqrt_apply, broadcast_apply, scalar_word,
    shapeCast_a_a1_apply]
  congr 3
  refine (rowSum_apply _ _ _ _ _ r).trans ?_
  refine Finset.sum_congr rfl fun s _ => ?_
  rw [mulf_apply, actVec_apply]

/-- The same at any index of the block. -/
theorem finish_at (a : Vec Ideal S10000x128 .f32) (d : Vec Ideal S10000x1 .f32) (w : Vec Ideal S128x128 .f32)
    (mean var gam bet : Vec Ideal S1x128 .f32) (y : S10000x128.Idx) :
    k1_pay1 (F := Ideal) a d w mean var gam bet y
      = Ideal.div (actTile a d w mean var gam bet (y 0) (y 1))
          (max (Ideal.sqrt (∑ s : Fin 128, actTile a d w mean var gam bet (y 0) s * actTile a d w mean var gam bet (y 0) s))
            Cert.NormSpec.epsLen) := by
  conv_lhs => rw [eq_ix2 y]
  exact finish_apply a d w mean var gam bet (y 0) (y 1)

end Cert.TileMath

end
-- ==== Proof.Finish.lean ====
/-
  The second region's result array.

  The region sweeps the 50000 rows in five stretches of 10000; at stretch `t` it reads rows
  `10000·t … 10000·t + 9999` of the aggregate and of the row weights, the whole weight matrix and the four
  statistics / weight rows, and writes the same rows of the result.  So the result array is one function of
  the arrays the region finds: the specification's `normed` of the projection
  `X p q = ∑ₖ (agg p k · d p) · W k q` with the mean, variance, scale and shift rows as handed in.
-/
import proofs.«181153_j61847529063045_2_alg».proof.Proof.Gen.KernelIdeal.Frame
import proofs.«181153_j61847529063045_2_alg».proof.Proof.TileMath
import proofs.«181153_j61847529063045_2_alg».proof.Proof.Spec
import Idealize.ShloMosaic.Lib.Pipeline.Value
import Idealize.ShloMosaic.Lib.ValueIdx

set_option maxRecDepth 16384

noncomputable section

namespace Cert.KernelIdeal.FinishValue

open Cert.KernelIdeal Cert.KernelIdeal.Gen
open Idealize.ShloMosaic Idealize.ShloMosaic.TcCoe Idealize.ShloMosaic.ValueIdx Idealize.SL.Sem
open Idealize.ShloMosaic.Pipeline (Dat)
open Cert.TileMath Cert.NormSpec
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five stretches: the aggregate, the row weights and the result move with the
    stretch along the rows; the weight matrix and the four rows stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `r` of stretch `t` in the whole array. -/
def rowOf (t : Fin cfg1.N) (r : Fin 10000) : Fin 50000 :=
  ⟨10000 * t.val + r.val, by have h5 : cfg1.N = 5 := N_1; have := t.isLt; have := r.isLt; omega⟩

/-- The arrays the region finds: the aggregate, the row weights (a column), the weight matrix, and the mean,
    variance, scale and shift rows. -/
def aggA (c : Dev nD) : S50000x128.Idx → EReal := V c main_v24
def wgtA (c : Dev nD) : S50000x1.Idx → EReal := V c main_v11
def matA (c : Dev nD) : S128x128.Idx → EReal := V c main_arg1
def meanA (c : Dev nD) : S1x128.Idx → EReal := V c main_v27
def varA (c : Dev nD) : S1x128.Idx → EReal := V c main_v33
def gamA (c : Dev nD) : S1x128.Idx → EReal := V c main_v34
def betA (c : Dev nD) : S1x128.Idx → EReal := V c main_v35

/-- The projection of the arrays the region finds. -/
def projAll (c : Dev nD) (p : Fin 50000) (q : Fin 128) : EReal :=
  ∑ k : Fin 128, (aggA V c (ix2 p k) * wgtA V c (ix2 p (0 : Fin 1))) * matA V c (ix2 k q)

/-- The result as a function of the coordinates. -/
def resultAt (c : Dev nD) (p : Fin 50000) (q : Fin 128) : EReal :=
  normed (projAll V c) (fun q => meanA V c (ix2 (0 : Fin 1) q)) (fun q => varA V c (ix2 (0 : Fin 1) q))
    (fun q => gamA V c (ix2 (0 : Fin 1) q)) (fun q => betA V c (ix2 (0 : Fin 1) q)) p q

/-- The result array as one function of the arrays the region finds. -/
def result (c : Dev nD) : Buf (Elt Ideal) ((c : Thread nD τ).loc main_v36) :=
  fun (i : S50000x128.Idx) => resultAt V c (i 0) (i 1)

theorem blk0 (c : Dev nD) (t : Fin cfg1.N) (r : Fin 10000) (k : Fin 128) :
    (iblk1 V c 0 t : Vec Ideal S10000x128 .f32) (ix2 r k) = aggA V c (ix2 (rowOf t r) k) := by
  obtain ⟨e0, e1, -⟩ := idx_facts t
  unfold iblk1
  rw [View.read_apply]
  show V c main_v24 _ = V c main_v24 _
  congr 1
  funext a
  apply Fin.ext
  match a with
  | ⟨0, _⟩ => show win1_0.index t (0 : Fin 2) * 10000 + 1 * r.val = 10000 * t.val + r.val; rw [e0]; omega
  | ⟨1, _⟩ => show win1_0.index t (1 : Fin 2) * 128 + 1 * k.val = k.val; rw [e1]; omega

theorem blk1 (c : Dev nD) (t : Fin cfg1.N) (r : Fin 10000) :
    (iblk1 V c 1 t : Vec Ideal S10000x1 .f32) (ix2 r (0 : Fin 1)) = wgtA V c (ix2 (rowOf t r) (0 : Fin 1)) := by
  obtain ⟨-, -, e0, e1, -⟩ := idx_facts t
  unfold iblk1
  rw [View.read_apply]
  show V c main_v11 _ = V c main_v11 _
  congr 1
  funext a
  apply Fin.ext
  match a with
  | ⟨0, _⟩ => show win1_1.index t (0 : Fin 2) * 10000 + 1 * r.val = 10000 * t.val + r.val; rw [e0]; omega
  | ⟨1, _⟩ => show win1_1.index t (1 : Fin 2) * 1 + 1 * 0 = 0; rw [e1]

theorem blk2 (c : Dev nD) (t : Fin cfg1.N) (k q : Fin 128) :
    (iblk1 V c 2 t : Vec Ideal S128x128 .f32) (ix2 k q) = matA V c (ix2 k q) := by
  obtain ⟨-, -, -, -, e0, e1, -⟩ := idx_facts t
  unfold iblk1
  rw [View.read_apply]
  show V c main_arg1 _ = V c main_arg1 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem blk3 (c : Dev nD) (t : Fin cfg1.N) (q : Fin 128) :
    (iblk1 V c 3 t : Vec Ideal S1x128 .f32) (ix2 (0 : Fin 1) q) = meanA V c (ix2 (0 : Fin 1) q) := by
  obtain ⟨-, -, -, -, -, -, e0, e1, -⟩ := idx_facts t
  unfold iblk1
  rw [View.read_apply]
  show V c main_v27 _ = V c main_v27 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

theorem blk4 (c : Dev nD) (t : Fin cfg1.N) (q : Fin 128) :
    (iblk1 V c 4 t : Vec Ideal S1x128 .f32) (ix2 (0 : Fin 1) q) = varA V c (ix2 (0 : Fin 1) q) := by
  obtain ⟨-, -, -, -, -, -, -, -, e0, e1, -⟩ := idx_facts t
  unfold iblk1
  rw [View.read_apply]
  show V c main_v33 _ = V c main_v33 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

theorem blk5 (c : Dev nD) (t : Fin cfg1.N) (q : Fin 128) :
    (iblk1 V c 5 t : Vec Ideal S1x128 .f32) (ix2 (0 : Fin 1) q) = gamA V c (ix2 (0 : Fin 1) q) := by
  obtain ⟨-, -, -, -, -, -, -, -, -, -, e0, e1, -⟩ := idx_facts t
  unfold iblk1
  rw [View.read_apply]
  show V c main_v34 _ = V c main_v34 _
  congr 1
  funext a
  apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

theorem blk6 (c : Dev nD) (t : Fin cfg1.N) (q : Fin 128) :
    (iblk1 V c 6 t : Vec Ideal S1x128 .f32) (ix2 (0 : Fin 1) q) = betA V c (ix2 (0 : Fin 1) q) := by
  obtain ⟨-, -, -, -, -, -, -, -, -, -, -, -, e0, e1, -⟩ := idx_facts t
  unfold iblk1
  rw [View.read_apply]
  show V c main_v35 _ = V c main_v35 _
  congr 1
  funext a
  apply Fin.ext
  match a with
  | ⟨0, _⟩ => show win1_6.index t (0 : Fin 2) * 1 + 1 * 0 = 0; rw [e0]
  | ⟨1, _⟩ => show win1_6.index t (1 : Fin 2) * 128 + 1 * q.val = q.val; rw [e1]; omega

/-- Where the result's block at stretch `t` sits in the array. -/
theorem emb7 (t : Fin cfg1.N) (j : S10000x128.Idx) :
    ((cfg1.win 7).blk t).view.emb j = ix2 (rowOf t (j 0)) (j 1) := by
  obtain ⟨-, -, -, -, -, -, -, -, -, -, -, -, -, -, e0, e1⟩ := idx_facts t
  funext a
  apply Fin.ext
  match a with
  | ⟨0, _⟩ => show win1_7.index t (0 : Fin 2) * 10000 + 1 * (j 0).val = 10000 * t.val + (j 0).val; rw [e0]; omega
  | ⟨1, _⟩ => show win1_7.index t (1 : Fin 2) * 128 + 1 * (j 1).val = (j 1).val; rw [e1]; omega

/-- A stretch's projection is the arrays' projection at the stretch's rows. -/
theorem proj_blocks (c : Dev nD) (t : Fin cfg1.N) (r : Fin 10000) (q : Fin 128) :
    projTile (iblk1 V c 0 t) (iblk1 V c 1 t) (iblk1 V c 2 t) r q = projAll V c (rowOf t r) q := by
  unfold projTile projAll
  refine Finset.sum_congr rfl fun k _ => ?_
  rw [blk0, blk1, blk2]

/-- A stretch's rectified entries are the specification's at the stretch's rows. -/
theorem act_blocks (c : Dev nD) (t : Fin cfg1.N) (r : Fin 10000) (q : Fin 128) :
    actTile (iblk1 V c 0 t) (iblk1 V c 1 t) (iblk1 V c 2 t) (iblk1 V c 3 t) (iblk1 V c 4 t) (iblk1 V c 5 t) (iblk1 V c 6 t) r q
      = act (projAll V c) (fun q => meanA V c (ix2 (0 : Fin 1) q)) (fun q => varA V c (ix2 (0 : Fin 1) q))
          (fun q => gamA V c (ix2 (0 : Fin 1) q)) (fun q => betA V c (ix2 (0 : Fin 1) q)) (rowOf t r) q := by
  unfold actTile act
  rw [proj_blocks, blk3, blk4, blk5, blk6]

/-- What stretch `t` writes back is block `t` of the result function. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S10000x128) hz, View.ld_unit_zero (S := S10000x1) hz,
    View.ld_unit_zero (S := S128x128) hz, View.ld_unit_zero (S := S1x128) hz]
  funext j
  show k1_pay1 (F := Ideal) (iblk1 V c 0 t) (iblk1 V c 1 t) (iblk1 V c 2 t) (iblk1 V c 3 t) (iblk1 V c 4 t)
      (iblk1 V c 5 t) (iblk1 V c 6 t) j = result V c (((cfg1.win 7).blk t).view.emb j)
  refine (finish_at _ _ _ _ _ _ _ j).trans ?_
  rw [emb7 t j]
  show _ = resultAt V c (rowOf t (j 0)) (j 1)
  unfold resultAt normed rowLen
  have hact : ∀ s : Fin 128, actTile (iblk1 V c 0 t) (iblk1 V c 1 t) (iblk1 V c 2 t) (iblk1 V c 3 t) (iblk1 V c 4 t)
      (iblk1 V c 5 t) (iblk1 V c 6 t) (j 0) s
        = act (projAll V c) (fun q => meanA V c (ix2 (0 : Fin 1) q)) (fun q => varA V c (ix2 (0 : Fin 1) q))
            (fun q => gamA V c (ix2 (0 : Fin 1) q)) (fun q => betA V c (ix2 (0 : Fin 1) q)) (rowOf t (j 0)) s :=
    fun s => act_blocks V c t (j 0) s
  exact congr (congrArg Ideal.div (hact (j 1)))
    (congrArg (fun x => max (Ideal.sqrt x) epsLen)
      (Finset.sum_congr rfl fun s _ => congr (congrArg HMul.hMul (hact s)) (hact s)))

/-- An index of the array is in stretch `t`'s block iff each coordinate is in the block's range on its axis. -/
theorem mem_blk (t : Fin cfg1.N) (i : S50000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v36).slice (win1_7.rect t)).set ↔ _
  rw [View.set_slice_whole, Rect.mem_set_unit]
  exact Iff.rfl

/-- The five stretches cover the array: row `p` is in stretch `p / 10000`. -/
theorem final (c : Dev nD) : (dat1 V c).arrAt 7 cfg1.N = result V c :=
  (dat1 V c).arrAt_eq_of_cover 7 (result V c) (fun t _ => flushed_eq V c t) fun i => by
    have hi0 : (i 0).val < 50000 := (i 0).isLt
    have hi1 : (i 1).val < 128 := (i 1).isLt
    have h5 : cfg1.N = 5 := N_1
    refine ⟨⟨(i 0).val / 10000, by omega⟩, flush1_7 _, ?_⟩
    obtain ⟨-, -, -, -, -, -, -, -, -, -, -, -, -, -, e0, e1⟩ := idx_facts ⟨(i 0).val / 10000, by omega⟩
    rw [mem_blk]
    intro a
    match a with
    | ⟨0, _⟩ =>
      show win1_7.index _ (0 : Fin 2) * 10000 ≤ (i 0).val ∧ (i 0).val < win1_7.index _ (0 : Fin 2) * 10000 + 10000
      rw [e0]; dsimp only; omega
    | ⟨1, _⟩ =>
      show win1_7.index _ (1 : Fin 2) * 128 ≤ (i 1).val ∧ (i 1).val < win1_7.index _ (1 : Fin 2) * 128 + 128
      rw [e1]; omega

end Cert.KernelIdeal.FinishValue

end
-- ==== Proof.Stats.lean ====
/-
  The first region's two result arrays: the running column sums of the projection and of its squares.

  The region sweeps the 50000 rows in five stretches of 10000.  At stretch `t` it reads rows
  `10000·t … 10000·t + 9999` of the aggregate and of the row weights and the whole weight matrix; its two outputs
  are rows of 128 entries that stay in place from stretch to stretch and are written back once, after the last.
  At the first stretch both rows are reset to zero and the stretch's column sums (of the projection, of its
  squares) are added; at every later stretch the stretch's column sums are added onto what the rows hold.  So after
  stretch `n` the rows hold the specification's running sums of the arrays' projection
  `X p q = ∑ₖ (agg p k · d p) · W k q`, and the result arrays end holding the running sums after the last stretch.
-/
import proofs.«181153_j61847529063045_2_alg».proof.Proof.Gen.KernelIdeal.Frame
import proofs.«181153_j61847529063045_2_alg».proof.Proof.TileMath
import proofs.«181153_j61847529063045_2_alg».proof.Proof.Spec
import proofs.«181153_j61847529063045_2_alg».proof.Proof.Finish
import Idealize.ShloMosaic.Lib.Pipeline.Value
import Idealize.ShloMosaic.Lib.ValueIdx
import Idealize.ShloMosaic.Lib.Tactic

set_option maxRecDepth 16384

noncomputable section

namespace Cert.KernelIdeal.StatsValue

open Cert.KernelIdeal Cert.KernelIdeal.Gen
open Idealize.ShloMosaic Idealize.ShloMosaic.TcCoe Idealize.ShloMosaic.ValueIdx Idealize.SL.Sem
open Idealize.ShloMosaic.Pipeline (Dat)
open Cert.TileMath Cert.NormSpec
open scoped BigOperators

theorem hz : (![0, 0] : Fin 2 → Nat) = fun _ => 0 := funext fun a => by fin_cases a <;> rfl

section Cases
variable {F : FTy → Type} [FloatOps F]

/-- Away from the first stretch the first output's buffer, holding `xo3`, is left at the running column sum over it. -/
theorem out_B_3 (c : Dev nD) (i : grid0.Coords) (a1 : Memref sig .tc .vmem S10000x128 .f32) (h1 : a1.IsWhole)
    (a2 : Memref sig .tc .vmem S10000x1 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole) (hc : ¬cond0_0 i)
    (x0 : Vec F S10000x128 .f32) (x1 : Vec F S10000x1 .f32) (x2 : Vec F S128x128 .f32) (xo3 xo4 : Vec F S1x128 .f32) :
    out0_B_3 c i a1 h1 a2 h2 a3 h3 a4 h4 a5 h5 hc x0 x1 x2 xo3 xo4 = k0_pay4 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread,
    View.ld_unit_zero (S := S10000x128) hz, View.ld_unit_zero (S := S10000x1) hz,
    View.ld_unit_zero (S := S128x128) hz, View.ld_unit_zero (S := S1x128) hz]

/-- Away from the first stretch the second output's buffer, holding `xo4`, is left at the running column sum of squares over it. -/
theorem out_B_4 (c : Dev nD) (i : grid0.Coords) (a1 : Memref sig .tc .vmem S10000x128 .f32) (h1 : a1.IsWhole)
    (a2 : Memref sig .tc .vmem S10000x1 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole) (hc : ¬cond0_0 i)
    (x0 : Vec F S10000x128 .f32) (x1 : Vec F S10000x1 .f32) (x2 : Vec F S128x128 .f32) (xo3 xo4 : Vec F S1x128 .f32) :
    out0_B_4 c i a1 h1 a2 h2 a3 h3 a4 h4 a5 h5 hc x0 x1 x2 xo3 xo4 = k0_pay5 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h5.read_unread,
    View.ld_unit_zero (S := S10000x128) hz, View.ld_unit_zero (S := S10000x1) hz,
    View.ld_unit_zero (S := S128x128) hz, View.ld_unit_zero (S := S1x128) hz]

/-- At the first stretch the first output's buffer is reset to the zero row and then left at the running column sum over it. -/
theorem out_A_3 (c : Dev nD) (i : grid0.Coords) (a1 : Memref sig .tc .vmem S10000x128 .f32) (h1 : a1.IsWhole)
    (a2 : Memref sig .tc .vmem S10000x1 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole) (hc : cond0_0 i)
    (x0 : Vec F S10000x128 .f32) (x1 : Vec F S10000x1 .f32) (x2 : Vec F S128x128 .f32) :
    out0_A_3 c i a1 h1 a2 h2 a3 h3 a4 h4 a5 h5 hc x0 x1 x2 = k0_pay4 x0 x1 x2 k0_pay1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S10000x128) hz, View.ld_unit_zero (S := S10000x1) hz,
    View.ld_unit_zero (S := S128x128) hz, View.ld_unit_zero (S := S1x128) hz]

/-- At the first stretch the second output's buffer is reset to the zero row and then left at the running column sum of squares over it. -/
theorem out_A_4 (c : Dev nD) (i : grid0.Coords) (a1 : Memref sig .tc .vmem S10000x128 .f32) (h1 : a1.IsWhole)
    (a2 : Memref sig .tc .vmem S10000x1 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole) (hc : cond0_0 i)
    (x0 : Vec F S10000x128 .f32) (x1 : Vec F S10000x1 .f32) (x2 : Vec F S128x128 .f32) :
    out0_A_4 c i a1 h1 a2 h2 a3 h3 a4 h4 a5 h5 hc x0 x1 x2 = k0_pay5 x0 x1 x2 k0_pay2 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S10000x128) hz, View.ld_unit_zero (S := S10000x1) hz,
    View.ld_unit_zero (S := S128x128) hz, View.ld_unit_zero (S := S1x128) hz]

end Cases

/-! ## The blocks of a stretch, read at array coordinates -/

open Cert.KernelIdeal.FinishValue (aggA wgtA matA projAll)

variable (V : (c : Dev nD) → (b : Ref sig .tc) → Buf (Elt Ideal) ((c : Thread nD τ).loc b))

/-- The printed index maps over the five stretches: the aggregate and the row weights move with the stretch along
    the rows; the weight matrix and the two rows of sums stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A point of the grid as a stretch number. -/
def stretch (t : Fin cfg0.N) : Fin 5 := ⟨t.val, lt_of_lt_of_eq t.isLt (show cfg0.N = 5 from N_0)⟩

theorem blk0 (c : Dev nD) (t : Fin cfg0.N) (r : Fin 10000) (k : Fin 128) :
    (iblk0 V c 0 t : Vec Ideal S10000x128 .f32) (ix2 r k) = aggA V c (ix2 (tileRow (stretch t) r) k) := by
  obtain ⟨e0, e1, -⟩ := idx_facts t
  unfold iblk0
  rw [View.read_apply]
  show V c main_v24 _ = V c main_v24 _
  congr 1
  funext a
  apply Fin.ext
  match a with
  | ⟨0, _⟩ => show win0_0.index t (0 : Fin 2) * 10000 + 1 * r.val = 10000 * t.val + r.val; rw [e0]; omega
  | ⟨1, _⟩ => show win0_0.index t (1 : Fin 2) * 128 + 1 * k.val = k.val; rw [e1]; omega

theorem blk1 (c : Dev nD) (t : Fin cfg0.N) (r : Fin 10000) :
    (iblk0 V c 1 t : Vec Ideal S10000x1 .f32) (ix2 r (0 : Fin 1)) = wgtA V c (ix2 (tileRow (stretch t) r) (0 : Fin 1)) := by
  obtain ⟨-, -, e0, e1, -⟩ := idx_facts t
  unfold iblk0
  rw [View.read_apply]
  show V c main_v11 _ = V c main_v11 _
  congr 1
  funext a
  apply Fin.ext
  match a with
  | ⟨0, _⟩ => show win0_1.index t (0 : Fin 2) * 10000 + 1 * r.val = 10000 * t.val + r.val; rw [e0]; omega
  | ⟨1, _⟩ => show win0_1.index t (1 : Fin 2) * 1 + 1 * 0 = 0; rw [e1]

theorem blk2 (c : Dev nD) (t : Fin cfg0.N) (k q : Fin 128) :
    (iblk0 V c 2 t : Vec Ideal S128x128 .f32) (ix2 k q) = matA V c (ix2 k q) := by
  obtain ⟨-, -, -, -, e0, e1, -⟩ := idx_facts t
  unfold iblk0
  rw [View.read_apply]
  show V c main_arg1 _ = V c main_arg1 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- A stretch's projection is the arrays' projection at the stretch's rows. -/
theorem proj_blocks (c : Dev nD) (t : Fin cfg0.N) (r : Fin 10000) (q : Fin 128) :
    projTile (iblk0 V c 0 t) (iblk0 V c 1 t) (iblk0 V c 2 t) r q = projAll V c (tileRow (stretch t) r) q := by
  unfold projTile projAll
  refine Finset.sum_congr rfl fun k _ => ?_
  rw [blk0, blk1, blk2]

/-! ## The running sums -/

/-- Two rows of 128 entries are equal when they agree at every column. -/
theorem row_ext (f g : Vec Ideal S1x128 .f32) (h : ∀ q : Fin 128, f (ix2 (0 : Fin 1) q) = g (ix2 (0 : Fin 1) q)) :
    f = g := by
  funext i
  have hi : i = ix2 (0 : Fin 1) (i 1) := by
    funext a
    apply Fin.ext
    match a with
    | ⟨0, _⟩ => have h0 : (i 0).val < 1 := (i 0).isLt; show (i 0).val = 0; omega
    | ⟨1, _⟩ => rfl
  rw [hi]
  exact h _

/-- The running column sums of the projection after stretch `n`, as a row. -/
def sumAt (c : Dev nD) (n : ℕ) (h : n < cfg0.N) : Vec Ideal S1x128 .f32 :=
  fun i => runSum (fun p => projAll V c p (i 1)) n (lt_of_lt_of_eq h (show cfg0.N = 5 from N_0))

/-- The running column sums of the projection's squares after stretch `n`, as a row. -/
def sqAt (c : Dev nD) (n : ℕ) (h : n < cfg0.N) : Vec Ideal S1x128 .f32 :=
  fun i => runSum (fun p => projAll V c p (i 1) * projAll V c p (i 1)) n (lt_of_lt_of_eq h (show cfg0.N = 5 from N_0))

/-- The zero rows the reset stores are zero. -/
theorem pay1_apply (i : S1x128.Idx) : k0_pay1 (F := Ideal) i = 0 := by
  show Ideal.ofBits .f32 0x00000000#32 = 0
  exact Ideal.ofBits_zero_f32

theorem pay2_apply (i : S1x128.Idx) : k0_pay2 (F := Ideal) i = 0 := by
  show Ideal.ofBits .f32 0x00000000#32 = 0
  exact Ideal.ofBits_zero_f32

/-- One stretch's column sum of the blocks' projection is the specification's stretch sum of the arrays' projection. -/
theorem tile_sum (c : Dev nD) (t : Fin cfg0.N) (q : Fin 128) :
    ∑ r : Fin 10000, projTile (iblk0 V c 0 t) (iblk0 V c 1 t) (iblk0 V c 2 t) r q
      = tileSum (fun p => projAll V c p q) (stretch t) := by
  unfold tileSum
  exact Finset.sum_congr rfl fun r _ => proj_blocks V c t r q

theorem tile_sq (c : Dev nD) (t : Fin cfg0.N) (q : Fin 128) :
    ∑ r : Fin 10000, projTile (iblk0 V c 0 t) (iblk0 V c 1 t) (iblk0 V c 2 t) r q
        * projTile (iblk0 V c 0 t) (iblk0 V c 1 t) (iblk0 V c 2 t) r q
      = tileSum (fun p => projAll V c p q * projAll V c p q) (stretch t) := by
  unfold tileSum
  exact Finset.sum_congr rfl fun r _ => by rw [proj_blocks V c t r q]

/-- What the two outputs' buffers hold after stretch `n` is the pair of running sums: by induction on the stretch. -/
theorem outsAt_eq (c : Dev nD) : ∀ (n : ℕ) (h : n < cfg0.N), outsAt0 V c n h = (sumAt V c n h, sqAt V c n h)
  | 0, h => by
    refine (outsAt0_A V c ⟨0, h⟩ rfl).trans ?_
    rw [out_A_3, out_A_4]
    refine Prod.ext (row_ext _ _ fun q => ?_) (row_ext _ _ fun q => ?_)
    · show k0_pay4 (F := Ideal) _ _ _ _ (ix2 (0 : Fin 1) q) = runSum (fun p => projAll V c p q) 0 _
      rw [colSums_apply, pay1_apply, zero_add, tile_sum]
      rfl
    · show k0_pay5 (F := Ideal) _ _ _ _ (ix2 (0 : Fin 1) q) = runSum (fun p => projAll V c p q * projAll V c p q) 0 _
      rw [colSquares_apply, pay2_apply, zero_add, tile_sq]
      rfl
  | n + 1, h => by
    have hN : cfg0.N = 5 := N_0
    have hB : ¬(⟨n + 1, h⟩ : Fin cfg0.N).val % 5 = 0 := by dsimp only; omega
    refine (outsAt0_B V c ⟨n + 1, h⟩ hB).trans ?_
    rw [out_B_3, out_B_4]
    have ih := outsAt_eq c n (Nat.lt_of_succ_lt h)
    refine Prod.ext (row_ext _ _ fun q => ?_) (row_ext _ _ fun q => ?_)
    · show k0_pay4 (F := Ideal) _ _ _ (outsAt0 V c n _).1 (ix2 (0 : Fin 1) q) = runSum (fun p => projAll V c p q) (n + 1) _
      rw [colSums_apply, ih, tile_sum]
      rfl
    · show k0_pay5 (F := Ideal) _ _ _ (outsAt0 V c n _).2 (ix2 (0 : Fin 1) q)
          = runSum (fun p => projAll V c p q * projAll V c p q) (n + 1) _
      rw [colSquares_apply, ih, tile_sq]
      rfl

/-! ## The one write-back, after the last stretch -/

/-- The running sums after the last stretch, as contents of the two result arrays. -/
abbrev resultSum (c : Dev nD) : Buf (Elt Ideal) ((c : Thread nD τ).loc main_v25_0) :=
  sumAt V c 4 (by rw [show cfg0.N = 5 from N_0]; decide)

abbrev resultSq (c : Dev nD) : Buf (Elt Ideal) ((c : Thread nD τ).loc main_v25_1) :=
  sqAt V c 4 (by rw [show cfg0.N = 5 from N_0]; decide)

/-- The last stretch writes the first result back whole: block (0, 0) of a [1,128] array at zero offsets is the array. -/
theorem flushed_sum (c : Dev nD) (t : Fin cfg0.N) (hf : (cfg0.win 3).flush t = true) :
    (dat0 V c).flushed 3 t = ((cfg0.win 3).blk t).view.read (Elt Ideal) (resultSum V c) := by
  have hN : cfg0.N = 5 := N_0
  have h4 : t.val = 4 := by have := (flush0_3 t).mp hf; have := t.isLt; omega
  obtain rfl : t = t0_4 := Fin.ext h4
  show (cfg0.win 3).cut (grid0.coords t0_4) ((dat0 V c).after 3 t0_4) = _
  rw [after0_3, outsAt_eq]
  have hz' : (fun a => win0_3.index t0_4 a * main_v25_0.ty.shape.size a) = fun _ => 0 :=
    funext fun a => by fin_cases a <;> decide
  exact (Memref.read_access_unit_zero (Elt Ideal) main_v25_0 hz' (fun a => by rw [congrFun hz' a]; simp)
    (resultSum V c)).symm

theorem flushed_sq (c : Dev nD) (t : Fin cfg0.N) (hf : (cfg0.win 4).flush t = true) :
    (dat0 V c).flushed 4 t = ((cfg0.win 4).blk t).view.read (Elt Ideal) (resultSq V c) := by
  have hN : cfg0.N = 5 := N_0
  have h4 : t.val = 4 := by have := (flush0_4 t).mp hf; have := t.isLt; omega
  obtain rfl : t = t0_4 := Fin.ext h4
  show (cfg0.win 4).cut (grid0.coords t0_4) ((dat0 V c).after 4 t0_4) = _
  rw [after0_4, outsAt_eq]
  have hz' : (fun a => win0_4.index t0_4 a * main_v25_1.ty.shape.size a) = fun _ => 0 :=
    funext fun a => by fin_cases a <;> decide
  exact (Memref.read_access_unit_zero (Elt Ideal) main_v25_1 hz' (fun a => by rw [congrFun hz' a]; simp)
    (resultSq V c)).symm

/-- The first result array ends holding the running column sums after the last stretch: that stretch's block covers it. -/
theorem final_sum (c : Dev nD) : (dat0 V c).arrAt 3 cfg0.N
    = (fun (i : S1x128.Idx) => runSum (fun p => projAll V c p (i 1)) 4 (by decide)) :=
  (dat0 V c).arrAt_eq_of_cover 3 (resultSum V c) (flushed_sum V c) fun i =>
    ⟨t0_4, (flush0_3 t0_4).mpr rfl, by
      show i ∈ ((View.whole main_v25_0).slice (win0_3.rect t0_4)).set
      rw [View.set_slice_whole, Rect.mem_set_unit]
      intro a
      have h0 : (i 0 : Nat) < 1 := (i 0).isLt
      have h1 : (i 1 : Nat) < 128 := (i 1).isLt
      match a with
      | ⟨0, _⟩ =>
        show win0_3.index t0_4 0 * win0_3.size 0 ≤ (i 0 : Nat)
          ∧ (i 0 : Nat) < win0_3.index t0_4 0 * win0_3.size 0 + win0_3.xsize (grid0.coords t0_4) 0
        rw [show win0_3.index t0_4 0 * win0_3.size 0 = 0 from by decide +kernel,
          show win0_3.xsize (grid0.coords t0_4) 0 = 1 from by decide +kernel]; omega
      | ⟨1, _⟩ =>
        show win0_3.index t0_4 1 * win0_3.size 1 ≤ (i 1 : Nat)
          ∧ (i 1 : Nat) < win0_3.index t0_4 1 * win0_3.size 1 + win0_3.xsize (grid0.coords t0_4) 1
        rw [show win0_3.index t0_4 1 * win0_3.size 1 = 0 from by decide +kernel,
          show win0_3.xsize (grid0.coords t0_4) 1 = 128 from by decide +kernel]; omega⟩

/-- The second result array ends holding the running column sums of squares after the last stretch. -/
theorem final_sq (c : Dev nD) : (dat0 V c).arrAt 4 cfg0.N
    = (fun (i : S1x128.Idx) => runSum (fun p => projAll V c p (i 1) * projAll V c p (i 1)) 4 (by decide)) :=
  (dat0 V c).arrAt_eq_of_cover 4 (resultSq V c) (flushed_sq V c) fun i =>
    ⟨t0_4, (flush0_4 t0_4).mpr rfl, by
      show i ∈ ((View.whole main_v25_1).slice (win0_4.rect t0_4)).set
      rw [View.set_slice_whole, Rect.mem_set_unit]
      intro a
      have h0 : (i 0 : Nat) < 1 := (i 0).isLt
      have h1 : (i 1 : Nat) < 128 := (i 1).isLt
      match a with
      | ⟨0, _⟩ =>
        show win0_4.index t0_4 0 * win0_4.size 0 ≤ (i 0 : Nat)
          ∧ (i 0 : Nat) < win0_4.index t0_4 0 * win0_4.size 0 + win0_4.xsize (grid0.coords t0_4) 0
        rw [show win0_4.index t0_4 0 * win0_4.size 0 = 0 from by decide +kernel,
          show win0_4.xsize (grid0.coords t0_4) 0 = 1 from by decide +kernel]; omega
      | ⟨1, _⟩ =>
        show win0_4.index t0_4 1 * win0_4.size 1 ≤ (i 1 : Nat)
          ∧ (i 1 : Nat) < win0_4.index t0_4 1 * win0_4.size 1 + win0_4.xsize (grid0.coords t0_4) 1
        rw [show win0_4.index t0_4 1 * win0_4.size 1 = 0 from by decide +kernel,
          show win0_4.xsize (grid0.coords t0_4) 1 = 128 from by decide +kernel]; omega⟩

end Cert.KernelIdeal.StatsValue

end
-- ==== Proof.HostFold.lean ====
/-
  What the host operations of the idealized kernel program leave in the arrays its two regions read.

  The program's head — the degrees by scatter-add, each not below one, their inverse square roots, the features
  scaled by their source's weight, the gather of edge rows and the scatter-add aggregate — is the same list of
  operations as the reference's head, so each buffer after a stretch is the reference's stage function of the
  arguments.  A stretch is read one at a time over the boundary before it: a buffer it writes holds its operation's
  value of the operands' contents, a buffer it does not write holds what it held.  The first region only reads its
  three input arrays, so they reach the second region as the first found them; between the regions the column sums
  are divided by the count, the variance is the mean of squares less the squared mean, not below zero, and the
  scale and shift are recast as rows.
-/
import proofs.«181153_j61847529063045_2_alg».proof.Proof.Gen.KernelIdeal.Frame
import proofs.«181153_j61847529063045_2_alg».proof.Proof.Gen.ReferenceIdeal.Read
import Idealize.ShloMosaic.Lib.StableHlo.Run

set_option maxRecDepth 16384

noncomputable section

namespace Cert.KernelIdeal.HostFold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

open Cert.ReferenceIdeal.Read

/-! ## The arguments at the boundaries before the first region: no operation writes one -/

theorem W4_arg0 : W4 m ρ c (Proc.devRef .tc main_arg0) = m ((c.tc : Thread nD τ).loc main_arg0) := by
  show StableHlo.after hostOps0_3 (StableHlo.after hostOps0_2 (StableHlo.after hostOps0_1
    (StableHlo.after hostOps0 (W0 m ρ c)))) (Proc.devRef .tc main_arg0) = _
  after_results <;> rfl

theorem W4_arg4 : W4 m ρ c (Proc.devRef .tc main_arg4) = m ((c.tc : Thread nD τ).loc main_arg4) := by
  show StableHlo.after hostOps0_3 (StableHlo.after hostOps0_2 (StableHlo.after hostOps0_1
    (StableHlo.after hostOps0 (W0 m ρ c)))) (Proc.devRef .tc main_arg4) = _
  after_results <;> rfl

theorem W4_arg5 : W4 m ρ c (Proc.devRef .tc main_arg5) = m ((c.tc : Thread nD τ).loc main_arg5) := by
  show StableHlo.after hostOps0_3 (StableHlo.after hostOps0_2 (StableHlo.after hostOps0_1
    (StableHlo.after hostOps0 (W0 m ρ c)))) (Proc.devRef .tc main_arg5) = _
  after_results <;> rfl

theorem W2_arg5 : W2 m ρ c (Proc.devRef .tc main_arg5) = m ((c.tc : Thread nD τ).loc main_arg5) := by
  show StableHlo.after hostOps0_1 (StableHlo.after hostOps0 (W0 m ρ c)) (Proc.devRef .tc main_arg5) = _
  after_results <;> rfl

theorem W5_arg1 : W5 m ρ c (Proc.devRef .tc main_arg1) = m ((c.tc : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  after_results <;> rfl

theorem W5_arg2 : W5 m ρ c (Proc.devRef .tc main_arg2) = m ((c.tc : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  after_results <;> rfl

theorem W5_arg3 : W5 m ρ c (Proc.devRef .tc main_arg3) = m ((c.tc : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  after_results <;> rfl

/-! ## The first stretch: the out-degree sums, the vector of ones, the constant one -/

theorem W1_v3 : W1 m ρ c (Proc.devRef .tc main_v3)
    = val_main_v3 (F := Ideal) (m ((c.tc : Thread nD τ).loc main_arg4)) := by
  show StableHlo.after hostOps0 _ (Proc.devRef .tc main_v3) = _
  after_results <;> rfl

theorem W1_v0 : W1 m ρ c (Proc.devRef .tc main_v0) = val_main_v0 (F := Ideal) := by
  show StableHlo.after hostOps0 _ (Proc.devRef .tc main_v0) = _
  after_results <;> rfl

theorem W1_cst_1 : W1 m ρ c (Proc.devRef .tc main_cst_1) = val_main_cst_1 (F := Ideal) := by
  show StableHlo.after hostOps0 _ (Proc.devRef .tc main_cst_1) = _
  after_results <;> rfl

/-! ## The second stretch: the out-degree not below one -/

theorem W2_v4 : W2 m ρ c (Proc.devRef .tc main_v4)
    = val_main_v4 (F := Ideal) (m ((c.tc : Thread nD τ).loc main_arg4)) := by
  have h3 := W1_v3 m ρ c
  have h1 := W1_cst_1 m ρ c
  show StableHlo.after hostOps0_1 (W1 m ρ c) (Proc.devRef .tc main_v4) = _
  generalize W1 m ρ c = V at h3 h1 ⊢
  after_results
  rw [h3, h1]
  rfl

theorem W2_v0 : W2 m ρ c (Proc.devRef .tc main_v0) = val_main_v0 (F := Ideal) := by
  have h0 := W1_v0 m ρ c
  show StableHlo.after hostOps0_1 (W1 m ρ c) (Proc.devRef .tc main_v0) = _
  generalize W1 m ρ c = V at h0 ⊢
  after_results
  exact h0

/-! ## The third stretch: the in-degree sums -/

theorem W3_v7 : W3 m ρ c (Proc.devRef .tc main_v7)
    = val_main_v7 (F := Ideal) (m ((c.tc : Thread nD τ).loc main_arg5)) := by
  have h0 := W2_v0 m ρ c
  have h5 := W2_arg5 m ρ c
  show StableHlo.after hostOps0_2 (W2 m ρ c) (Proc.devRef .tc main_v7) = _
  generalize W2 m ρ c = V at h0 h5 ⊢
  after_results
  rw [h0, h5]
  rfl

theorem W3_cst_3 : W3 m ρ c (Proc.devRef .tc main_cst_3) = val_main_cst_3 (F := Ideal) := by
  show StableHlo.after hostOps0_2 _ (Proc.devRef .tc main_cst_3) = _
  after_results <;> rfl

theorem W3_v4 : W3 m ρ c (Proc.devRef .tc main_v4)
    = val_main_v4 (F := Ideal) (m ((c.tc : Thread nD τ).loc main_arg4)) := by
  have h4 := W2_v4 m ρ c
  show StableHlo.after hostOps0_2 (W2 m ρ c) (Proc.devRef .tc main_v4) = _
  generalize W2 m ρ c = V at h4 ⊢
  after_results
  exact h4

/-! ## The fourth stretch: the in-degree not below one -/

theorem W4_v8 : W4 m ρ c (Proc.devRef .tc main_v8)
    = val_main_v8 (F := Ideal) (m ((c.tc : Thread nD τ).loc main_arg5)) := by
  have h7 := W3_v7 m ρ c
  have h3 := W3_cst_3 m ρ c
  show StableHlo.after hostOps0_3 (W3 m ρ c) (Proc.devRef .tc main_v8) = _
  generalize W3 m ρ c = V at h7 h3 ⊢
  after_results
  rw [h7, h3]
  rfl

theorem W4_v4 : W4 m ρ c (Proc.devRef .tc main_v4)
    = val_main_v4 (F := Ideal) (m ((c.tc : Thread nD τ).loc main_arg4)) := by
  have h4 := W3_v4 m ρ c
  show StableHlo.after hostOps0_3 (W3 m ρ c) (Proc.devRef .tc main_v4) = _
  generalize W3 m ρ c = V at h4 ⊢
  after_results
  exact h4

/-! ## The fifth stretch: the aggregate and the row weights, as the first region finds them -/

/-- The aggregate the first region reads is the reference's aggregate of the same arguments. -/
theorem head_agg : W5 m ρ c (Proc.devRef .tc main_v24)
    = val_main_v22 (F := Ideal) (m ((c.tc : Thread nD τ).loc main_arg0)) (m ((c.tc : Thread nD τ).loc main_arg4))
        (m ((c.tc : Thread nD τ).loc main_arg5)) := by
  have h4 := W4_v4 m ρ c
  have a0 := W4_arg0 m ρ c
  have a4 := W4_arg4 m ρ c
  have a5 := W4_arg5 m ρ c
  show StableHlo.after hostOps0_4 (W4 m ρ c) (Proc.devRef .tc main_v24) = _
  generalize W4 m ρ c = V at h4 a0 a4 a5 ⊢
  after_results_simp
  rw [h4, a0, a4, a5]
  rfl

/-- The row weights the first region reads: the reference's inverse square root of the in-degree not below one,
    recast as a column. -/
theorem head_wgt : W5 m ρ c (Proc.devRef .tc main_v11)
    = shapeCast S50000x1 (val_main_v23 (F := Ideal) (m ((c.tc : Thread nD τ).loc main_arg5)))
        shapeCasts_S50000_S50000x1 := by
  have h8 := W4_v8 m ρ c
  show StableHlo.after hostOps0_4 (W4 m ρ c) (Proc.devRef .tc main_v11) = _
  generalize W4 m ρ c = V at h8 ⊢
  after_results
  rw [h8]
  rfl

/-- The weight matrix the first region reads is the argument. -/
theorem head_mat : W5 m ρ c (Proc.devRef .tc main_arg1) = m ((c.tc : Thread nD τ).loc main_arg1) :=
  W5_arg1 m ρ c

end Cert.KernelIdeal.HostFold

end
-- ==== Proof.HostMid.lean ====
/-
  What the host operations between the two regions leave in the arrays the second region reads.

  Between the regions the program divides the first region's two rows of column sums by the row count (the mean
  row, and the mean of squares), subtracts the squared mean from the mean of squares and takes the larger of that
  and zero (the variance row), and lays the scale and shift arguments out as rows.  None of these operations
  writes the aggregate, the row weights or the weight matrix, and the first region only reads them, so the second
  region finds those three arrays as the first one did.
-/
import proofs.«181153_j61847529063045_2_alg».proof.Proof.Gen.KernelIdeal.Frame
import Idealize.ShloMosaic.Lib.Pipeline.Value
import Idealize.ShloMosaic.PureOps.Ideal.Laws
import Idealize.ShloMosaic.Lib.StableHlo.Run
import Idealize.ShloMosaic.Lib.Tactic

set_option maxRecDepth 16384

noncomputable section

namespace Cert.KernelIdeal.HostMid

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A stretch of host operations leaves a buffer none of them writes as it found it. -/
local macro "not_written " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first region's inputs reach the second region unchanged -/

/-- The aggregate: the host operations between the regions do not write it, and the first region only reads it. -/
theorem mid_agg (c : Dev nD) : W7 m ρ c (Proc.devRef .tc main_v24) = W5 m ρ c (Proc.devRef .tc main_v24) :=
  calc W7 m ρ c (Proc.devRef .tc main_v24)
    _ = W6 m ρ c (Proc.devRef .tc main_v24) := by not_written hostOps1
    _ = W5 m ρ c (Proc.devRef .tc main_v24) :=
      (W6_arr m ρ c 0).trans (((dat0 (V5 m ρ) c).arrAt_in 0 rfl _).trans (A_eq0 (V5 m ρ) c 0))

/-- The row weights likewise. -/
theorem mid_wgt (c : Dev nD) : W7 m ρ c (Proc.devRef .tc main_v11) = W5 m ρ c (Proc.devRef .tc main_v11) :=
  calc W7 m ρ c (Proc.devRef .tc main_v11)
    _ = W6 m ρ c (Proc.devRef .tc main_v11) := by not_written hostOps1
    _ = W5 m ρ c (Proc.devRef .tc main_v11) :=
      (W6_arr m ρ c 1).trans (((dat0 (V5 m ρ) c).arrAt_in 1 rfl _).trans (A_eq0 (V5 m ρ) c 1))

/-- The weight matrix likewise. -/
theorem mid_mat (c : Dev nD) : W7 m ρ c (Proc.devRef .tc main_arg1) = W5 m ρ c (Proc.devRef .tc main_arg1) :=
  calc W7 m ρ c (Proc.devRef .tc main_arg1)
    _ = W6 m ρ c (Proc.devRef .tc main_arg1) := by not_written hostOps1
    _ = W5 m ρ c (Proc.devRef .tc main_arg1) :=
      (W6_arr m ρ c 2).trans (((dat0 (V5 m ρ) c).arrAt_in 2 rfl _).trans (A_eq0 (V5 m ρ) c 2))

/-! ## The scale and shift arguments are as launched when the first region is left -/

theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by not_written hostOps0_4
    _ = W3 m ρ c (Proc.devRef .tc main_arg2) := by not_written hostOps0_3
    _ = W2 m ρ c (Proc.devRef .tc main_arg2) := by not_written hostOps0_2
    _ = W1 m ρ c (Proc.devRef .tc main_arg2) := by not_written hostOps0_1
    _ = W0 m ρ c (Proc.devRef .tc main_arg2) := by not_written hostOps0
    _ = m ((c : Thread nD τ).loc main_arg2) := rfl

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by not_written hostOps0_4
    _ = W3 m ρ c (Proc.devRef .tc main_arg3) := by not_written hostOps0_3
    _ = W2 m ρ c (Proc.devRef .tc main_arg3) := by not_written hostOps0_2
    _ = W1 m ρ c (Proc.devRef .tc main_arg3) := by not_written hostOps0_1
    _ = W0 m ρ c (Proc.devRef .tc main_arg3) := by not_written hostOps0
    _ = m ((c : Thread nD τ).loc main_arg3) := rfl

/-! ## What the host operations between the regions compute -/

/-- The mean row: the first region's row of column sums over the count, entry by entry. -/
theorem mid_mean (c : Dev nD) : W7 m ρ c (Proc.devRef .tc main_v27)
    = Host.divf ((dat0 (V5 m ρ) c).arrAt 3 cfg0.N)
        (broadcastInDim S1x128 ![] bcast_S_S1x128 (constant (F := Ideal) S_ .f32 0x47435000#32)) := by
  show StableHlo.after hostOps1 (W6 m ρ c) (Proc.devRef .tc main_v27) = _
  after_results
  rw [show W6 m ρ c (Proc.devRef .tc main_v25_0) = _ from W6_arr m ρ c 3]

/-- The variance row: the row of column sums of squares over the count, less the squared mean, not below zero. -/
theorem mid_var (c : Dev nD) : W7 m ρ c (Proc.devRef .tc main_v33)
    = maximumf (subf (Host.divf ((dat0 (V5 m ρ) c).arrAt 4 cfg0.N)
          (broadcastInDim S1x128 ![] bcast_S_S1x128 (constant (F := Ideal) S_ .f32 0x47435000#32)))
        (mulf (W7 m ρ c (Proc.devRef .tc main_v27)) (W7 m ρ c (Proc.devRef .tc main_v27))))
      (broadcastInDim S1x128 ![] bcast_S_S1x128 (constant (F := Ideal) S_ .f32 0x00000000#32)) := by
  rw [mid_mean]
  show StableHlo.after hostOps1 (W6 m ρ c) (Proc.devRef .tc main_v33) = _
  after_results
  rw [show W6 m ρ c (Proc.devRef .tc main_v25_1) = _ from W6_arr m ρ c 4,
    show W6 m ρ c (Proc.devRef .tc main_v25_0) = _ from W6_arr m ρ c 3]

/-- The scale row: the scale argument as launched, laid out as a row. -/
theorem mid_gam (c : Dev nD) : W7 m ρ c (Proc.devRef .tc main_v34)
    = shapeCast S1x128 (m ((c.tc : Thread nD τ).loc main_arg2)) shapeCasts_S128_S1x128 := by
  show StableHlo.after hostOps1 (W6 m ρ c) (Proc.devRef .tc main_v34) = _
  after_results
  rw [W6_arg2 m ρ c]
  rfl

/-- The shift row: the shift argument as launched, laid out as a row. -/
theorem mid_bet (c : Dev nD) : W7 m ρ c (Proc.devRef .tc main_v35)
    = shapeCast S1x128 (m ((c.tc : Thread nD τ).loc main_arg3)) shapeCasts_S128_S1x128 := by
  show StableHlo.after hostOps1 (W6 m ρ c) (Proc.devRef .tc main_v35) = _
  after_results
  rw [W6_arg3 m ρ c]
  rfl

end Cert.KernelIdeal.HostMid

end
-- ==== Proof.RefRead.lean ====
/-
  The reference program read at an index, as the specification's function.

  Reading the reference one operation at a time from its result backwards: the result at row p, column q is the
  rectified entry over its row's length; the rectified entry is the standardized, scaled and shifted entry of the
  projected array, not below zero; the column statistics are the whole-column mean and the mean squared deviation
  of the projected array; and the projected array's entry is a sum over 128 products.  Every broadcast only
  renames the index, every constant word is the specification's, and each of the reference's sums starts from the
  zero word, which denotes 0.
-/
import proofs.«181153_j61847529063045_2_alg».proof.Proof.Gen.ReferenceIdeal.Read
import proofs.«181153_j61847529063045_2_alg».proof.Proof.Spec
import Idealize.ShloMosaic.Lib.ValueIdx

noncomputable section

namespace Cert.RefRead

open Idealize.ShloMosaic Idealize.ShloMosaic.ValueIdx Cert.ReferenceIdeal Cert.ReferenceIdeal.Read
open scoped BigOperators

variable (x0 : (⟨S50000x128, .f32⟩ : BufTy).Contents (Elt Ideal))
  (x1 : (⟨S128x128, .f32⟩ : BufTy).Contents (Elt Ideal))
  (x2 x3 : (⟨S128, .f32⟩ : BufTy).Contents (Elt Ideal))
  (x4 x5 : (⟨S600000, .i32⟩ : BufTy).Contents (Elt Ideal))

/-- The projected array: the entry at row p, column q of the 128-term products' sum. -/
abbrev proj (p : Fin 50000) (q : Fin 128) : EReal := val_main_v27 (F := Ideal) x0 x1 x4 x5 (ix2 p q)

/-- The projected array's entry: the aggregated row, scaled by its row's weight, against a column of the weights. -/
theorem proj_at (p : Fin 50000) (q : Fin 128) :
    val_main_v27 (F := Ideal) x0 x1 x4 x5 (ix2 p q)
      = ∑ k : Fin 128, (val_main_v22 (F := Ideal) x0 x4 x5 (ix2 p k) * val_main_v23 (F := Ideal) x5 (ix1 p))
          * x1 (ix2 k q) := by
  rw [val_main_v27_apply]
  refine Finset.sum_congr rfl fun k _ => ?_
  have e1 : lidx_main_v27 (ix2 p q) k = ix2 p k :=
    funext fun a => Fin.ext (by match a with | ⟨0, _⟩ => rfl | ⟨1, _⟩ => rfl)
  have e2 : ridx_main_v27 (ix2 p q) k = ix2 k q :=
    funext fun a => Fin.ext (by match a with | ⟨0, _⟩ => rfl | ⟨1, _⟩ => rfl)
  have e3 : idx_main_v24 (idx_main_v25 (ix2 p k)) = ix1 p :=
    funext fun a => Fin.ext (by match a with | ⟨0, _⟩ => rfl)
  rw [e1, e2, val_main_v26_apply, val_main_v25_apply, val_main_v24_apply, e3, Ideal.mulf_def]

/-- The reference's column mean is the whole-column mean of the projected array. -/
theorem mean_at (q : Fin 128) :
    val_main_v30 (F := Ideal) x0 x1 x4 x5 (ix1 q) = Cert.NormSpec.meanWhole (proj x0 x1 x4 x5) q := by
  have e1 : ∀ k : Fin 50000, idx_main_v28 (ix1 q) k = ix2 k q := fun k =>
    funext fun a => Fin.ext (by match a with | ⟨0, _⟩ => rfl | ⟨1, _⟩ => rfl)
  rw [val_main_v30_apply, val_main_v28_apply, val_main_v29_apply, val_main_cst_6_apply, val_main_cst_7_apply]
  simp only [e1, Ideal.hostDivf_def, Ideal.ofBits_def, Ideal.ofBits_zero_f32, zero_add, Cert.NormSpec.meanWhole]

/-- The reference's column variance is the mean squared deviation of the projected array. -/
theorem var_at (q : Fin 128) :
    val_main_v37 (F := Ideal) x0 x1 x4 x5 (ix1 q) = Cert.NormSpec.varCentered (proj x0 x1 x4 x5) q := by
  have e1 : ∀ k : Fin 50000, idx_main_v35 (ix1 q) k = ix2 k q := fun k =>
    funext fun a => Fin.ext (by match a with | ⟨0, _⟩ => rfl | ⟨1, _⟩ => rfl)
  have e2 : ∀ k : Fin 50000, idx_main_v31 (idx_main_v32 (ix2 k q)) = ix1 q := fun k =>
    funext fun a => Fin.ext (by match a with | ⟨0, _⟩ => rfl)
  rw [val_main_v37_apply, val_main_v35_apply, val_main_v36_apply, val_main_cst_8_apply, val_main_cst_9_apply]
  simp only [e1, val_main_v34_apply, val_main_v33_apply, val_main_v32_apply, val_main_v31_apply, e2, mean_at,
    Ideal.hostDivf_def, Ideal.mulf_def, Ideal.subf_def, Ideal.ofBits_def, Ideal.ofBits_zero_f32, zero_add,
    Cert.NormSpec.varCentered]

/-- The reference's rectified entry is the specification's, at the whole-column statistics. -/
theorem act_at (p : Fin 50000) (q : Fin 128) :
    val_main_v53 (F := Ideal) x0 x1 x2 x3 x4 x5 (ix2 p q)
      = Cert.NormSpec.act (proj x0 x1 x4 x5) (Cert.NormSpec.meanWhole (proj x0 x1 x4 x5))
          (Cert.NormSpec.varCentered (proj x0 x1 x4 x5)) (fun q => x2 (ix1 q)) (fun q => x3 (ix1 q)) p q := by
  have e39 : idx_main_v38 (idx_main_v39 (ix2 p q)) = ix1 q :=
    funext fun a => Fin.ext (by match a with | ⟨0, _⟩ => rfl)
  have e45 : idx_main_v44 (idx_main_v45 (ix2 p q)) = ix1 q :=
    funext fun a => Fin.ext (by match a with | ⟨0, _⟩ => rfl)
  have e48 : idx_main_v47 (idx_main_v48 (ix2 p q)) = ix1 q :=
    funext fun a => Fin.ext (by match a with | ⟨0, _⟩ => rfl)
  have e51 : idx_main_v50 (idx_main_v51 (ix2 p q)) = ix1 q :=
    funext fun a => Fin.ext (by match a with | ⟨0, _⟩ => rfl)
  rw [val_main_v53_apply, val_main_v52_apply, val_main_v49_apply, val_main_v46_apply, val_main_v40_apply,
    val_main_v39_apply, val_main_v38_apply, e39, val_main_v45_apply, val_main_v44_apply, e45, val_main_v43_apply,
    val_main_v42_apply, val_main_v41_apply, val_main_cst_10_apply, val_main_v48_apply, val_main_v47_apply, e48,
    val_main_v51_apply, val_main_v50_apply, e51, val_main_call2_v0_apply, val_main_call2_cst_apply, mean_at, var_at]
  simp only [Ideal.maximumf_def, Ideal.addf_def, Ideal.mulf_def, Ideal.subf_def, Ideal.hostUnary_rsqrt_def,
    Ideal.ofBits_def, Ideal.ofBits_zero_f32, Cert.NormSpec.act]

/-- The reference's result at row p, column q is the specification's, at the whole-column statistics of the
    projected array and the program's scale and shift. -/
theorem ref_at (p : Fin 50000) (q : Fin 128) :
    val_main_v61 (F := Ideal) x0 x1 x2 x3 x4 x5 (ix2 p q)
      = Cert.NormSpec.normed (fun p q => val_main_v27 (F := Ideal) x0 x1 x4 x5 (ix2 p q))
          (Cert.NormSpec.meanWhole fun p q => val_main_v27 (F := Ideal) x0 x1 x4 x5 (ix2 p q))
          (Cert.NormSpec.varCentered fun p q => val_main_v27 (F := Ideal) x0 x1 x4 x5 (ix2 p q))
          (fun q => x2 (ix1 q)) (fun q => x3 (ix1 q)) p q := by
  have e56 : idx_main_v56 (idx_main_v60 (ix2 p q)) = ix1 p :=
    funext fun a => Fin.ext (by match a with | ⟨0, _⟩ => rfl)
  have e55 : ∀ k : Fin 128, idx_main_v55 (ix1 p) k = ix2 p k := fun k =>
    funext fun a => Fin.ext (by match a with | ⟨0, _⟩ => rfl | ⟨1, _⟩ => rfl)
  rw [val_main_v61_apply, val_main_v60_apply, val_main_v59_apply, val_main_v57_apply, val_main_v56_apply, e56,
    val_main_v55_apply, val_main_v58_apply, val_main_cst_12_apply, val_main_cst_11_apply]
  simp only [e55, val_main_v54_apply, act_at, Ideal.hostDivf_def, Ideal.maximumf_def, Ideal.mulf_def,
    Ideal.hostUnary_sqrt_def, Ideal.ofBits_def, Ideal.ofBits_zero_f32, zero_add, Cert.NormSpec.normed,
    Cert.NormSpec.rowLen]

end Cert.RefRead

end
-- ==== Proof.Bridge.lean ====
/-
  The kernel's result array as the one-pass form of the specification.

  The second region's result is the specification's `normed` of the projection of the arrays it finds, with the
  mean, variance, scale and shift rows it finds.  Those arrays are: the aggregate, the row weights and the weight
  matrix exactly as the first region found them (the same as the reference's stages); the mean row = the first
  region's running column sum over the count; the variance row = the running sum of squares over the count,
  less the squared mean, not below zero; the scale and shift vectors laid out as rows.  So the result is
  `normed X (meanTiled X) (varOnePass X) γ β` for the projection `X` of the reference's own stages.
-/
import proofs.«181153_j61847529063045_2_alg».proof.Proof.Finish
import proofs.«181153_j61847529063045_2_alg».proof.Proof.RefRead
import proofs.«181153_j61847529063045_2_alg».proof.Proof.LibLayout
import proofs.«181153_j61847529063045_2_alg».proof.Proof.LibRow
import Idealize.ShloMosaic.Lib.ValueIdx
import Idealize.ShloMosaic.Lib.Pipeline.Value

set_option maxRecDepth 16384

noncomputable section

namespace Cert.KernelIdeal.Bridge

open Cert.KernelIdeal Cert.KernelIdeal.Gen Cert.KernelIdeal.FinishValue
open Idealize.ShloMosaic Idealize.ShloMosaic.TcCoe Idealize.ShloMosaic.ValueIdx
open Cert.NormSpec
open scoped BigOperators

/-- A scalar float word repeated over a row, read at an entry. -/
theorem word_row (w : BitVec 32) (i : S1x128.Idx) :
    broadcastInDim S1x128 ![] bcast_S_S1x128 (constant (F := Ideal) S_ .f32 w) i = Ideal.ofBits .f32 w :=
  (broadcastInDim_apply _ bcast_S_S1x128 (constant (F := Ideal) S_ .f32 w) i (fun a => a.elim0) (fun a => a.elim0)).trans rfl

variable (V5 V7 : (c : Dev nD) → (b : Ref sig .tc) → Buf (Elt Ideal) ((c : Thread nD τ).loc b)) (c : Dev nD)
variable (x0 : S50000x128.Idx → EReal) (x1 : S128x128.Idx → EReal) (x2 x3 : S128.Idx → EReal) (x4 x5 : IVec S600000 32)

/-- The projection of the reference's own stages. -/
abbrev X : Fin 50000 → Fin 128 → EReal :=
  fun p q => Cert.ReferenceIdeal.Read.val_main_v27 (F := Ideal) x0 x1 x4 x5 (ix2 p q)

theorem proj_eq (hagg : aggA V5 c = Cert.ReferenceIdeal.Read.val_main_v22 (F := Ideal) x0 x4 x5)
    (hwgt : wgtA V5 c = shapeCast S50000x1 (Cert.ReferenceIdeal.Read.val_main_v23 (F := Ideal) x5) shapeCasts_S50000_S50000x1)
    (hmat : matA V5 c = x1) : projAll V5 c = X x0 x1 x4 x5 := by
  funext p q
  unfold projAll
  rw [hagg, hwgt, hmat]
  show _ = Cert.ReferenceIdeal.Read.val_main_v27 (F := Ideal) x0 x1 x4 x5 (ix2 p q)
  rw [Cert.RefRead.proj_at]
  refine Finset.sum_congr rfl fun k _ => ?_
  rw [shapeCast_a_a1_apply]

/-- The second region's result from what the host operations and the first region leave in its arrays. -/
theorem result_eq (sumArr sqArr : S1x128.Idx → EReal)
    (hagg : aggA V5 c = Cert.ReferenceIdeal.Read.val_main_v22 (F := Ideal) x0 x4 x5)
    (hwgt : wgtA V5 c = shapeCast S50000x1 (Cert.ReferenceIdeal.Read.val_main_v23 (F := Ideal) x5) shapeCasts_S50000_S50000x1)
    (hmat : matA V5 c = x1)
    (hagg7 : aggA V7 c = aggA V5 c) (hwgt7 : wgtA V7 c = wgtA V5 c) (hmat7 : matA V7 c = matA V5 c)
    (hsum : sumArr = fun i => runSum (fun p => projAll V5 c p (i 1)) 4 (by decide))
    (hsq : sqArr = fun i => runSum (fun p => projAll V5 c p (i 1) * projAll V5 c p (i 1)) 4 (by decide))
    (hmean : meanA V7 c = Host.divf sumArr (broadcastInDim S1x128 ![] bcast_S_S1x128 (constant (F := Ideal) S_ .f32 0x47435000#32)))
    (hvar : varA V7 c = maximumf (subf (Host.divf sqArr (broadcastInDim S1x128 ![] bcast_S_S1x128 (constant (F := Ideal) S_ .f32 0x47435000#32)))
        (mulf (meanA V7 c) (meanA V7 c))) (broadcastInDim S1x128 ![] bcast_S_S1x128 (constant (F := Ideal) S_ .f32 0x00000000#32)))
    (hgam : gamA V7 c = shapeCast S1x128 x2 shapeCasts_S128_S1x128) (hbet : betA V7 c = shapeCast S1x128 x3 shapeCasts_S128_S1x128)
    (i : S50000x128.Idx) :
    (result V7 c : S50000x128.Idx → EReal) i
      = normed (X x0 x1 x4 x5) (meanTiled (X x0 x1 x4 x5)) (varOnePass (X x0 x1 x4 x5))
          (fun q => x2 (ix1 q)) (fun q => x3 (ix1 q)) (i 0) (i 1) := by
  have hp5 : projAll V5 c = X x0 x1 x4 x5 := proj_eq V5 c x0 x1 x4 x5 hagg hwgt hmat
  have hp7 : projAll V7 c = X x0 x1 x4 x5 := by
    rw [← hp5]; funext p q; unfold projAll; rw [hagg7, hwgt7, hmat7]
  have hm : (fun q => meanA V7 c (ix2 (0 : Fin 1) q)) = meanTiled (X x0 x1 x4 x5) := by
    funext q
    rw [hmean]
    show Ideal.div (sumArr (ix2 (0 : Fin 1) q)) (broadcastInDim S1x128 ![] bcast_S_S1x128 (constant (F := Ideal) S_ .f32 0x47435000#32) (ix2 (0 : Fin 1) q)) = _
    rw [word_row, hsum, hp5]
    rfl
  have hv : (fun q => varA V7 c (ix2 (0 : Fin 1) q)) = varOnePass (X x0 x1 x4 x5) := by
    funext q
    have hmq : meanA V7 c (ix2 (0 : Fin 1) q) = meanTiled (X x0 x1 x4 x5) q := congrFun hm q
    rw [hvar]
    show max (Ideal.div (sqArr (ix2 (0 : Fin 1) q)) (broadcastInDim S1x128 ![] bcast_S_S1x128 (constant (F := Ideal) S_ .f32 0x47435000#32) (ix2 (0 : Fin 1) q))
        - meanA V7 c (ix2 (0 : Fin 1) q) * meanA V7 c (ix2 (0 : Fin 1) q))
      (broadcastInDim S1x128 ![] bcast_S_S1x128 (constant (F := Ideal) S_ .f32 0x00000000#32) (ix2 (0 : Fin 1) q)) = _
    rw [word_row, word_row, hsq, hp5, hmq, Ideal.ofBits_zero_f32]
    rfl
  have hg : (fun q => gamA V7 c (ix2 (0 : Fin 1) q)) = fun q => x2 (ix1 q) := by
    funext q; rw [hgam]; exact Cert.LibRow.row_apply _ _ q
  have hb : (fun q => betA V7 c (ix2 (0 : Fin 1) q)) = fun q => x3 (ix1 q) := by
    funext q; rw [hbet]; exact Cert.LibRow.row_apply _ _ q
  show resultAt V7 c (i 0) (i 1) = _
  unfold resultAt
  rw [hp7, hm, hv, hg, hb]

end Cert.KernelIdeal.Bridge

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.LibVariance.lean ====
/-
  Mean and variance of a finite family of real numbers.

  For real numbers `x_p` indexed by a finite type of `N ≠ 0` elements, with `m = (∑ x_p) / N`:
  the mean of the squares less the squared mean is the mean squared deviation,
  `(∑ x_p²)/N − m² = (∑ (x_p − m)²)/N` (division written as multiplication by `1/N`), because
  `∑ (x_p − m)² = ∑ x_p² − 2 m ∑ x_p + N m²` and `∑ x_p = N m`.  Also: reading a finite sum of reals in the
  extended reals is the sum of the readings.  Only Mathlib is used.
-/
import Mathlib

noncomputable section

namespace Cert.LibVariance

open scoped BigOperators

/-- A sum of reals read in the extended reals is the sum of the readings. -/
theorem coe_sum_real {ι : Type*} (s : Finset ι) (x : ι → ℝ) :
    ((∑ p ∈ s, x p : ℝ) : EReal) = ∑ p ∈ s, (x p : EReal) := by
  classical
  induction s using Finset.induction_on with
  | empty => simp
  | insert a s ha ih => rw [Finset.sum_insert ha, Finset.sum_insert ha, EReal.coe_add, ih]

/-- Over the reals: mean of squares less the squared mean is the mean squared deviation. -/
theorem real_var_identity {ι : Type*} [Fintype ι] (x : ι → ℝ) (N : ℝ) (hN : N ≠ 0)
    (hcard : (Fintype.card ι : ℝ) = N) :
    (∑ p, x p * x p) * (1 / N) - ((∑ p, x p) * (1 / N)) * ((∑ p, x p) * (1 / N))
      = (∑ p, (x p - (∑ p, x p) * (1 / N)) * (x p - (∑ p, x p) * (1 / N))) * (1 / N) := by
  set S : ℝ := ∑ p, x p with hS
  set m : ℝ := S * (1 / N) with hm
  have hexp : ∑ p, (x p - m) * (x p - m) = (∑ p, x p * x p) - 2 * m * S + N * (m * m) := by
    have h1 : ∀ p, (x p - m) * (x p - m) = x p * x p - 2 * m * x p + m * m := fun p => by ring
    simp only [h1]
    rw [Finset.sum_add_distrib, Finset.sum_sub_distrib, ← Finset.mul_sum, Finset.sum_const, Finset.card_univ,
      nsmul_eq_mul, hcard]
  rw [hexp, hm]
  field_simp
  ring

end Cert.LibVariance

end
-- ==== Proof.Moments.lean ====
/-
  The two spellings of a column's mean and variance agree on real entries.

  * The float word for the row count denotes the real 50000.
  * Adding five stretches of 10000 rows in order is adding all 50000 rows: addition in the extended reals is
    commutative and associative, so no finiteness is needed for the mean.
  * For real entries x_p (p < N), with m = (∑ x_p)/N,
      (∑ x_p²)/N − m² = (∑ (x_p − m)²)/N,
    because ∑ (x_p − m)² = ∑ x_p² − 2 m ∑ x_p + N m² and ∑ x_p = N m.  The right side is a sum of squares over a
    positive count, hence not below zero, and taking it not below zero changes nothing.
-/
import Mathlib
import proofs.«181153_j61847529063045_2_alg».proof.Proof.Spec
import proofs.«181153_j61847529063045_2_alg».proof.Proof.LibBlocks
import proofs.«181153_j61847529063045_2_alg».proof.Proof.LibVariance

noncomputable section

namespace Cert.NormSpec

open Idealize.ShloMosaic Cert.LibVariance
open scoped BigOperators

/-- The row-count word denotes the real 50000. -/
theorem countW_eq : countW = ((50000 : ℝ) : EReal) := by
  simp [countW, Ideal.ofBits, Ideal.ieee, -EReal.coe_mul]; norm_num

/-- Entry `r` of stretch `t` of a range of 5 · 10000 entries is row `10000·t + r`. -/
theorem entry_eq_tileRow (t : Fin 5) (r : Fin 10000) :
    (Cert.LibBlocks.entry t r : Fin (5 * 10000)) = tileRow t r :=
  Fin.ext (by show t.val * 10000 + r.val = 10000 * t.val + r.val; omega)

/-- The running sum after the last stretch is the sum over all rows. -/
theorem runSum_four (f : Fin 50000 → EReal) (h : 4 < 5) : runSum f 4 h = ∑ p : Fin 50000, f p := by
  have hs : ∑ p : Fin 50000, f p = ∑ a : Fin 5, ∑ b : Fin 10000, f (tileRow a b) := by
    have h0 := Cert.LibBlocks.sum_entries (A := 5) (B := 10000) (M := EReal) f
    rw [h0]
    exact Finset.sum_congr rfl fun a _ => Finset.sum_congr rfl fun b _ => by rw [entry_eq_tileRow]
  rw [hs, Fin.sum_univ_five]
  simp only [runSum, tileSum]
  rfl

/-- The one-pass mean is the whole-column mean. -/
theorem meanTiled_eq (X : Fin 50000 → Fin 128 → EReal) : meanTiled X = meanWhole X := by
  funext q
  simp only [meanTiled, meanWhole, runSum_four]

/-- For real entries the one-pass variance is the mean squared deviation. -/
theorem varOnePass_eq (X : Fin 50000 → Fin 128 → EReal) (hX : ∀ p q, ∃ r : ℝ, X p q = (r : EReal)) :
    varOnePass X = varCentered X := by
  choose x hx using hX
  have hN : (50000 : ℝ) ≠ 0 := by norm_num
  funext q
  have hmean : meanWhole X q = (((∑ p, x p q) * (1 / 50000) : ℝ) : EReal) := by
    simp only [meanWhole, countW_eq, hx, Ideal.div_coe hN, ← coe_sum_real, ← EReal.coe_mul]
  have hone : varOnePass X q
      = max ((((∑ p, x p q * x p q) * (1 / 50000)
          - ((∑ p, x p q) * (1 / 50000)) * ((∑ p, x p q) * (1 / 50000)) : ℝ)) : EReal) 0 := by
    simp only [varOnePass, meanTiled_eq, hmean, runSum_four, countW_eq, hx, Ideal.div_coe hN, ← EReal.coe_mul,
      ← coe_sum_real, ← EReal.coe_sub]
  have hcen : varCentered X q
      = (((∑ p, (x p q - (∑ p, x p q) * (1 / 50000)) * (x p q - (∑ p, x p q) * (1 / 50000))) * (1 / 50000) : ℝ) : EReal) := by
    simp only [varCentered, hmean, countW_eq, hx, Ideal.div_coe hN, ← EReal.coe_mul, ← EReal.coe_sub,
      ← coe_sum_real]
  have hid := real_var_identity (fun p => x p q) 50000 hN (by simp)
  rw [hone, hcen, hid]
  refine max_eq_left (EReal.coe_nonneg.mpr ?_)
  exact mul_nonneg (Finset.sum_nonneg fun _ _ => mul_self_nonneg _) (by norm_num)

/-- With real entries the result read with the one-pass statistics is the result read with the whole-column ones. -/
theorem normed_agree (X : Fin 50000 → Fin 128 → EReal) (hX : ∀ p q, ∃ r : ℝ, X p q = (r : EReal))
    (gam bet : Fin 128 → EReal) :
    normed X (meanTiled X) (varOnePass X) gam bet = normed X (meanWhole X) (varCentered X) gam bet := by
  rw [meanTiled_eq, varOnePass_eq X hX]

end Cert.NormSpec

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.LibDegreeWeight.lean ====
/-
  The node weights of a graph convolution: the inverse square root of a degree, and zero where the degree is zero.

  A degree is a count: zero plus a sum of ones over the edges that land on the node. On the extended reals the count is
  a natural number, so its inverse square root is a real number that is not negative, and the guarded form
  `deg > 0 ? rsqrt deg : 0` is always such a number. That is all the algebra of the convolution needs of a weight:
  multiplication by it distributes over sums of arbitrary extended reals.
-/
import Idealize.ShloMosaic.PureOps.Ideal.Laws
import Idealize.ShloMosaic.Lib.IdealHost

noncomputable section

namespace Cert.LibDegreeWeight

open Idealize.ShloMosaic Idealize.ShloMosaic.ValueIdx

/-- A sum of ones over a finite set is the set's size. -/
theorem sum_ones {ι : Type} (s : Finset ι) : (∑ _j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The guarded inverse square root of a count is not negative and not infinite. -/
theorem guarded_rsqrt_count (n : ℕ) :
    0 ≤ Scalar.select (Ideal.cmp .ogt ((n : ℝ) : EReal) 0) (Ideal.rsqrt ((n : ℝ) : EReal)) (0 : EReal)
    ∧ Scalar.select (Ideal.cmp .ogt ((n : ℝ) : EReal) 0) (Ideal.rsqrt ((n : ℝ) : EReal)) (0 : EReal) ≠ ⊤ := by
  rcases Nat.eq_zero_or_pos n with h | h
  · subst h
    have : Ideal.cmp .ogt (((0 : ℕ) : ℝ) : EReal) 0 = 0#1 := by simp [Ideal.cmp]
    rw [this, select_zero]
    exact ⟨le_refl _, EReal.zero_ne_top⟩
  · have hpos : (0 : ℝ) < (n : ℝ) := by exact_mod_cast h
    have : Ideal.cmp .ogt ((n : ℝ) : EReal) 0 = 1#1 := by
      have : (0 : EReal) < ((n : ℝ) : EReal) := by exact_mod_cast hpos
      simp [Ideal.cmp, h]
    rw [this, select_one]
    have hr : Ideal.rsqrt ((n : ℝ) : EReal) = (((Real.sqrt (n : ℝ))⁻¹ : ℝ) : EReal) := by
      show (if (n : ℝ) < 0 then ⊥ else if (n : ℝ) = 0 then ⊤ else (((Real.sqrt (n : ℝ))⁻¹ : ℝ) : EReal)) = _
      rw [if_neg (not_lt.mpr hpos.le), if_neg hpos.ne']
    rw [hr]
    exact ⟨by exact_mod_cast inv_nonneg.mpr (Real.sqrt_nonneg _), EReal.coe_ne_top _⟩

/-- The same for a degree as the programs compute it: the 32-bit float zero plus a sum of 32-bit float ones over a
    finite set of edges, compared with the float zero, the alternative the float zero. -/
theorem guarded_rsqrt_degree {ι : Type} (s : Finset ι) (deg z : EReal) (u : ι → EReal) (hd : deg = z + ∑ j ∈ s, u j)
    (hz : z = Ideal.ofBits .f32 0x00000000#32) (hu : ∀ j, u j = Ideal.ofBits .f32 0x3F800000#32) :
    0 ≤ Scalar.select (Ideal.cmp .ogt deg (Ideal.ofBits .f32 0x00000000#32)) (Ideal.rsqrt deg) (Ideal.ofBits .f32 0x00000000#32)
    ∧ Scalar.select (Ideal.cmp .ogt deg (Ideal.ofBits .f32 0x00000000#32)) (Ideal.rsqrt deg) (Ideal.ofBits .f32 0x00000000#32) ≠ ⊤ := by
  have hd' : deg = ((s.card : ℝ) : EReal) := by
    rw [hd, hz, Finset.sum_congr rfl (fun j _ => hu j), Ideal.ofBits_zero_f32, Ideal.ofBits_one_f32, zero_add, sum_ones]
  rw [hd', Ideal.ofBits_zero_f32]
  exact guarded_rsqrt_count s.card

/-- A scatter that adds updates onto an array reads, at any index, the array's entry plus the sum of the updates that
    land there (a finite set of them). -/
theorem scatterAdd_apply {s si u : Shape} {w : ℕ} (d : ScatterDims s si u) (z : s.Idx → EReal) (idx : IVec si w)
    (upd : u.Idx → EReal) (i : s.Idx) :
    ∃ t : Finset u.Idx, Host.scatterAdd (F := Ideal) (φ := .f32) d z idx upd i = z i + ∑ j ∈ t, upd j :=
  ⟨_, rfl⟩

/-- The guarded inverse square root of an array, read at an index. -/
theorem guarded_apply {s : Shape} (deg z0 z1 : s.Idx → EReal) (i : s.Idx) :
    select (cmpf (F := Ideal) (φ := .f32) .ogt deg z0) (Host.rsqrt (F := Ideal) (φ := .f32) deg) z1 i
      = Scalar.select (Ideal.cmp .ogt (deg i) (z0 i)) (Ideal.rsqrt (deg i)) (z1 i) := rfl

end Cert.LibDegreeWeight

end
-- ==== Proof.RealEntries.lean ====
/-
  The projected entries are real numbers when the float inputs are.

  On the extended reals a product distributes over a sum only away from the infinities, so the comparison of a
  one-pass column variance with the mean squared deviation needs every entry of the projected feature matrix to be a
  real number. The degrees are counts (zero plus a finite sum of ones) clipped below at one, so their inverse square
  roots are real; scaling, gathering rows, adding rows up and contracting with a real weight matrix keep entries real.
-/
import proofs.«181153_j61847529063045_2_alg».proof.Proof.Gen.ReferenceIdeal.Read
import proofs.«181153_j61847529063045_2_alg».proof.Pre_finite_inputs
import proofs.«181153_j61847529063045_2_alg».proof.Proof.LibSums
import proofs.«181153_j61847529063045_2_alg».proof.Proof.LibDegreeWeight
import Idealize.ShloMosaic.Lib.ReduceAll
import Idealize.ShloMosaic.Lib.IdealHost

noncomputable section

namespace Cert.RealEntries

open Cert.ReferenceIdeal Cert.ReferenceIdeal.Gen Cert.ReferenceIdeal.Read Idealize.ShloMosaic Idealize.ShloMosaic.TcCoe Idealize.SL.Sem Idealize.ShloMosaic.StableHlo

/-- An extended real that is a real number. -/
def IsReal (x : EReal) : Prop := ∃ r : ℝ, x = (r : EReal)

/-- An extended real that is a positive real number. -/
def IsPosReal (x : EReal) : Prop := ∃ r : ℝ, 0 < r ∧ x = (r : EReal)

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ j ∈ s, IsReal (f j)) : IsReal (∑ j ∈ s, f j) := by
  classical
  induction s using Finset.induction_on with
  | empty => rw [Finset.sum_empty]; exact IsReal.zero
  | insert a s ha ih =>
    rw [Finset.sum_insert ha]
    exact (h a (Finset.mem_insert_self a s)).add (ih fun j hj => h j (Finset.mem_insert_of_mem hj))

theorem IsPosReal.isReal {x : EReal} (h : IsPosReal x) : IsReal x := by
  obtain ⟨r, _, rfl⟩ := h
  exact ⟨r, rfl⟩

/-- The larger of one and a real number is a positive real number. -/
theorem IsPosReal.max_one {x : EReal} (hx : IsReal x) : IsPosReal (max 1 x) := by
  obtain ⟨a, rfl⟩ := hx
  refine ⟨max 1 a, lt_of_lt_of_le one_pos (le_max_left 1 a), ?_⟩
  rw [← EReal.coe_one]
  exact (Monotone.map_max EReal.coe_strictMono.monotone).symm

/-- The inverse square root of a positive real number is a real number. -/
theorem IsPosReal.rsqrt {x : EReal} (hx : IsPosReal x) : IsReal (Ideal.rsqrt x) := by
  obtain ⟨r, hr, rfl⟩ := hx
  refine ⟨(Real.sqrt r)⁻¹, ?_⟩
  show (if r < 0 then ⊥ else if r = 0 then ⊤ else (((Real.sqrt r)⁻¹ : ℝ) : EReal)) = _
  rw [if_neg (not_lt.mpr hr.le), if_neg hr.ne']

/-- A scatter that adds real updates onto a real array has real entries: an entry is the array's plus a finite sum
    of updates. -/
theorem scatterAdd_real {s si u : Shape} {w : ℕ} (d : ScatterDims s si u) (z : s.Idx → EReal) (idx : IVec si w)
    (upd : u.Idx → EReal) (hz : ∀ i, IsReal (z i)) (hu : ∀ j, IsReal (upd j)) (i : s.Idx) :
    IsReal (Host.scatterAdd (F := Ideal) (φ := .f32) d z idx upd i) := by
  obtain ⟨t, ht⟩ := Cert.LibDegreeWeight.scatterAdd_apply d z idx upd i
  rw [ht]
  exact (hz i).add (IsReal.sum _ _ fun j _ => hu j)

/-- A gather of a real array has real entries: each is one of the array's. -/
theorem gather_real {s si t : Shape} {w : ℕ} (d : GatherDims s si t) (x : s.Idx → EReal) (idx : IVec si w)
    (hx : ∀ i, IsReal (x i)) (j : t.Idx) : IsReal (Host.gather d x idx j) :=
  hx _

/-! ## The stages of the reference program -/

theorem real_zero_word : IsReal (FloatOps.ofBits (F := Ideal) .f32 0x00000000#32) := by
  rw [Ideal.ofBits_def, Ideal.ofBits_zero_f32]; exact IsReal.zero

theorem real_one_word : IsReal (FloatOps.ofBits (F := Ideal) .f32 0x3F800000#32) := by
  rw [Ideal.ofBits_def, Ideal.ofBits_one_f32]; exact IsReal.one

/-- The out-degree vector: zeros plus ones scattered. -/
theorem real_v3 (x4 : (⟨S600000, .i32⟩ : BufTy).Contents (Elt Ideal)) (i : S50000.Idx) :
    IsReal (val_main_v3 (F := Ideal) x4 i) := by
  unfold val_main_v3
  refine scatterAdd_real _ _ _ _ (fun i => ?_) (fun j => ?_) i
  · rw [val_main_v1_apply, val_main_cst_0_apply]; exact real_zero_word
  · rw [val_main_v0_apply, val_main_cst_apply]; exact real_one_word

/-- The in-degree vector. -/
theorem real_v7 (x5 : (⟨S600000, .i32⟩ : BufTy).Contents (Elt Ideal)) (i : S50000.Idx) :
    IsReal (val_main_v7 (F := Ideal) x5 i) := by
  unfold val_main_v7
  refine scatterAdd_real _ _ _ _ (fun i => ?_) (fun j => ?_) i
  · rw [val_main_v5_apply, val_main_cst_2_apply]; exact real_zero_word
  · rw [val_main_v0_apply, val_main_cst_apply]; exact real_one_word

/-- The clipped out-degree is a positive real. -/
theorem pos_v4 (x4 : (⟨S600000, .i32⟩ : BufTy).Contents (Elt Ideal)) (i : S50000.Idx) :
    IsPosReal (val_main_v4 (F := Ideal) x4 i) := by
  rw [val_main_v4_apply, val_main_call0_v1_apply, val_main_call0_v0_apply, val_main_cst_1_apply, Ideal.maximumf_def,
    Ideal.ofBits_def, Ideal.ofBits_one_f32]
  exact IsPosReal.max_one (real_v3 x4 i)

/-- The clipped in-degree is a positive real. -/
theorem pos_v8 (x5 : (⟨S600000, .i32⟩ : BufTy).Contents (Elt Ideal)) (i : S50000.Idx) :
    IsPosReal (val_main_v8 (F := Ideal) x5 i) := by
  rw [val_main_v8_apply, val_main_call1_v1_apply, val_main_call1_v0_apply, val_main_cst_3_apply, Ideal.maximumf_def,
    Ideal.ofBits_def, Ideal.ofBits_one_f32]
  exact IsPosReal.max_one (real_v7 x5 i)

theorem real_v9 (x4 : (⟨S600000, .i32⟩ : BufTy).Contents (Elt Ideal)) (i : S50000.Idx) :
    IsReal (val_main_v9 (F := Ideal) x4 i) := by
  rw [val_main_v9_apply, Ideal.hostUnary_rsqrt_def]
  exact (pos_v4 x4 i).rsqrt

theorem real_v23 (x5 : (⟨S600000, .i32⟩ : BufTy).Contents (Elt Ideal)) (i : S50000.Idx) :
    IsReal (val_main_v23 (F := Ideal) x5 i) := by
  rw [val_main_v23_apply, Ideal.hostUnary_rsqrt_def]
  exact (pos_v8 x5 i).rsqrt

/-- The features scaled by the source weights. -/
theorem real_v12 (x0 : (⟨S50000x128, .f32⟩ : BufTy).Contents (Elt Ideal)) (x4 : (⟨S600000, .i32⟩ : BufTy).Contents (Elt Ideal))
    (h0 : ∀ i, IsReal (x0 i)) (i : S50000x128.Idx) : IsReal (val_main_v12 (F := Ideal) x0 x4 i) := by
  rw [val_main_v12_apply, val_main_v11_apply, val_main_v10_apply, Ideal.mulf_def]
  exact (h0 i).mul (real_v9 x4 _)

/-- The rows gathered along the edges, then added up at the destinations. -/
theorem real_v22 (x0 : (⟨S50000x128, .f32⟩ : BufTy).Contents (Elt Ideal)) (x4 x5 : (⟨S600000, .i32⟩ : BufTy).Contents (Elt Ideal))
    (h0 : ∀ i, IsReal (x0 i)) (i : S50000x128.Idx) : IsReal (val_main_v22 (F := Ideal) x0 x4 x5 i) := by
  unfold val_main_v22
  refine scatterAdd_real _ _ _ _ (fun i => ?_) (fun j => ?_) i
  · rw [val_main_v20_apply, val_main_cst_5_apply]; exact real_zero_word
  · unfold val_main_v19
    exact gather_real _ _ _ (real_v12 x0 x4 h0) j

/-- The aggregate scaled by the destination weights. -/
theorem real_v26 (x0 : (⟨S50000x128, .f32⟩ : BufTy).Contents (Elt Ideal)) (x4 x5 : (⟨S600000, .i32⟩ : BufTy).Contents (Elt Ideal))
    (h0 : ∀ i, IsReal (x0 i)) (i : S50000x128.Idx) : IsReal (val_main_v26 (F := Ideal) x0 x4 x5 i) := by
  rw [val_main_v26_apply, val_main_v25_apply, val_main_v24_apply, Ideal.mulf_def]
  exact (real_v22 x0 x4 x5 h0 i).mul (real_v23 x5 _)

/-- Every entry of the projection is a real number when the features and the weights are. -/
theorem proj_real (x0 : (⟨S50000x128, .f32⟩ : BufTy).Contents (Elt Ideal)) (x1 : (⟨S128x128, .f32⟩ : BufTy).Contents (Elt Ideal))
    (x4 x5 : (⟨S600000, .i32⟩ : BufTy).Contents (Elt Ideal))
    (h0 : ∀ i, ∃ r : ℝ, x0 i = (r : EReal)) (h1 : ∀ i, ∃ r : ℝ, x1 i = (r : EReal)) :
    ∀ i, ∃ r : ℝ, Cert.ReferenceIdeal.Read.val_main_v27 (F := Ideal) x0 x1 x4 x5 i = (r : EReal) := by
  intro i
  rw [val_main_v27_apply]
  exact IsReal.sum _ _ fun k _ => (real_v26 x0 x4 x5 h0 _).mul (h1 _)

/-! ## The precondition read at the extended reals -/

instance : Subsingleton Cert.Pre_finite_inputs.S_.Idx := ⟨fun a b => funext fun d => d.elim0⟩

/-- The precondition "every float input is finite" says, of the features and of the weights, that every entry is a
    real number: it is the conjunction of four "all entries have absolute value below +infinity" bits. -/
theorem pre_real [Cert.Pre_finite_inputs.Facts] (a0 : FVec Ideal Cert.Pre_finite_inputs.S50000x128 .f32)
    (a1 : FVec Ideal Cert.Pre_finite_inputs.S128x128 .f32) (a2 a3 : FVec Ideal Cert.Pre_finite_inputs.S128 .f32)
    (a4 a5 : IVec Cert.Pre_finite_inputs.S600000 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) := by
  have h' := congrFun h (fun a => a.elim0)
  dsimp only [Cert.Pre_finite_inputs.fn, Cert.Pre_finite_inputs.fn_part1, andi] at h'
  obtain ⟨h13, -⟩ := IntOp.andi_eq_one.1 h'
  obtain ⟨h8, -⟩ := IntOp.andi_eq_one.1 h13
  obtain ⟨h3, h7⟩ := IntOp.andi_eq_one.1 h8
  refine ⟨fun i => ?_, fun i => ?_⟩
  · exact Cert.LibSums.real_of_finite_bit _ (Host.reduce_andi_all _ _ _ _ _ h3 i)
  · exact Cert.LibSums.real_of_finite_bit _ (Host.reduce_andi_all _ _ _ _ _ h7 i)

end Cert.RealEntries

end
-- ==== Proof.RefSide.lean ====
/-
  The reference's result as the one-pass form of the specification.

  With real float inputs every entry of the projection `X = (agg · d) W` is a real number, so the column
  statistics taken in one pass over five stretches equal the whole-column mean and mean squared deviation, and
  the reference's result array is the specification's `normed` of `X` with the ONE-PASS statistics.
-/
import proofs.«181153_j61847529063045_2_alg».proof.Proof.RefRead
import proofs.«181153_j61847529063045_2_alg».proof.Proof.Moments
import proofs.«181153_j61847529063045_2_alg».proof.Proof.RealEntries
import Idealize.ShloMosaic.Lib.ValueIdx

noncomputable section

namespace Cert.RefSide

open Idealize.ShloMosaic Idealize.ShloMosaic.ValueIdx Cert.ReferenceIdeal Cert.ReferenceIdeal.Read Cert.NormSpec

/-- The reference's result, entry by entry, from real node features and weights. -/
theorem ref_value (x0 : (⟨S50000x128, .f32⟩ : BufTy).Contents (Elt Ideal)) (x1 : (⟨S128x128, .f32⟩ : BufTy).Contents (Elt Ideal))
    (x2 x3 : (⟨S128, .f32⟩ : BufTy).Contents (Elt Ideal)) (x4 x5 : (⟨S600000, .i32⟩ : BufTy).Contents (Elt Ideal))
    (h0 : ∀ i, ∃ r : ℝ, x0 i = (r : EReal)) (h1 : ∀ i, ∃ r : ℝ, x1 i = (r : EReal)) (i : S50000x128.Idx) :
    val_main_v61 (F := Ideal) x0 x1 x2 x3 x4 x5 i
      = normed (fun p q => val_main_v27 (F := Ideal) x0 x1 x4 x5 (ix2 p q))
          (meanTiled fun p q => val_main_v27 (F := Ideal) x0 x1 x4 x5 (ix2 p q))
          (varOnePass fun p q => val_main_v27 (F := Ideal) x0 x1 x4 x5 (ix2 p q))
          (fun q => x2 (ix1 q)) (fun q => x3 (ix1 q)) (i 0) (i 1) := by
  have hX : ∀ (p : Fin 50000) (q : Fin 128), ∃ r : ℝ, val_main_v27 (F := Ideal) x0 x1 x4 x5 (ix2 p q) = (r : EReal) :=
    fun p q => Cert.RealEntries.proj_real x0 x1 x4 x5 h0 h1 (ix2 p q)
  rw [normed_agree _ hX]
  conv_lhs => rw [eq_ix2 i]
  exact Cert.RefRead.ref_at x0 x1 x2 x3 x4 x5 (i 0) (i 1)

end Cert.RefSide

end
-- ==== Proof.Claims.lean ====
/-
  The certificate's claims.

  The three frames: the two kernel programs' are the generated frames; the reference's is its generated run with
  the result dropped.  No operation was rewritten on the way to the idealized kernel.  The value claim: from
  memories that agree on the arguments, the idealized kernel's result array and the reference's are the same
  extended reals entry by entry.  Both are the specification's `normed` of the projection
  `X = (agg · d) W`, with the scale and shift vectors, and with the column statistics of `X`: the kernel's
  taken in one pass over five stretches of rows (running sums of `X` and `X²`; variance = mean of squares less
  squared mean, not below zero), the reference's over whole columns (variance = mean squared deviation).  With
  finite float inputs every entry of `X` is a real number — the degrees are counts clipped to at least one, so
  their inverse square roots are real, and sums and products of reals are real — and for real entries the two
  spellings of the statistics agree.
-/
import proofs.«181153_j61847529063045_2_alg».proof.Proof.Gen.Kernel.Frame
import proofs.«181153_j61847529063045_2_alg».proof.Defs
import proofs.«181153_j61847529063045_2_alg».proof.Proof.Gen.KernelIdeal.Frame
import proofs.«181153_j61847529063045_2_alg».proof.Proof.Gen.ReferenceIdeal.Run
import proofs.«181153_j61847529063045_2_alg».proof.Proof.Gen.ReferenceIdeal.Read
import proofs.«181153_j61847529063045_2_alg».proof.Proof.KernelRun
import proofs.«181153_j61847529063045_2_alg».proof.Proof.Finish
import proofs.«181153_j61847529063045_2_alg».proof.Proof.Stats
import proofs.«181153_j61847529063045_2_alg».proof.Proof.HostFold
import proofs.«181153_j61847529063045_2_alg».proof.Proof.HostMid
import proofs.«181153_j61847529063045_2_alg».proof.Proof.Bridge
import proofs.«181153_j61847529063045_2_alg».proof.Proof.RefSide
import proofs.«181153_j61847529063045_2_alg».proof.Proof.RealEntries

set_option maxRecDepth 16384

noncomputable section

namespace Cert.Proof.Claims

open Idealize.ShloMosaic Idealize.ShloMosaic.TcCoe Idealize.ShloMosaic.ValueIdx Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

theorem preserves : Cert.preserves_Kernel_KernelIdeal := trivial

section Value

open Cert.KernelIdeal Cert.KernelIdeal.Gen

/-- The kernel's result array, entry by entry, from real node features and weights: the specification's
    `normed` of the reference's own projection with the one-pass statistics. -/
theorem kernel_value (m : (ℓ : Loc nD τ sig) → Buf (Elt Ideal) ℓ) (ρ : Dev nD → PrngReg) (c : Dev nD) (i : S50000x128.Idx) :
    (W8 m ρ c (Proc.devRef .tc main_v36) : S50000x128.Idx → EReal) i
      = Cert.NormSpec.normed
          (Cert.KernelIdeal.Bridge.X (m ((c.tc : Thread nD τ).loc main_arg0)) (m ((c.tc : Thread nD τ).loc main_arg1))
            (m ((c.tc : Thread nD τ).loc main_arg4)) (m ((c.tc : Thread nD τ).loc main_arg5)))
          (Cert.NormSpec.meanTiled (Cert.KernelIdeal.Bridge.X (m ((c.tc : Thread nD τ).loc main_arg0)) (m ((c.tc : Thread nD τ).loc main_arg1))
            (m ((c.tc : Thread nD τ).loc main_arg4)) (m ((c.tc : Thread nD τ).loc main_arg5))))
          (Cert.NormSpec.varOnePass (Cert.KernelIdeal.Bridge.X (m ((c.tc : Thread nD τ).loc main_arg0)) (m ((c.tc : Thread nD τ).loc main_arg1))
            (m ((c.tc : Thread nD τ).loc main_arg4)) (m ((c.tc : Thread nD τ).loc main_arg5))))
          (fun q => (m ((c.tc : Thread nD τ).loc main_arg2) : S128.Idx → EReal) (ix1 q))
          (fun q => (m ((c.tc : Thread nD τ).loc main_arg3) : S128.Idx → EReal) (ix1 q)) (i 0) (i 1) := by
  have e : W8 m ρ c (Proc.devRef .tc main_v36) = Cert.KernelIdeal.FinishValue.result (V7 m ρ) c :=
    (W8_arr m ρ c 7).trans (Cert.KernelIdeal.FinishValue.final (V7 m ρ) c)
  rw [e]
  exact Cert.KernelIdeal.Bridge.result_eq (V5 m ρ) (V7 m ρ) c _ _ _ _ _ _
    ((dat0 (V5 m ρ) c).arrAt 3 cfg0.N) ((dat0 (V5 m ρ) c).arrAt 4 cfg0.N)
    (Cert.KernelIdeal.HostFold.head_agg m ρ c) (Cert.KernelIdeal.HostFold.head_wgt m ρ c) (Cert.KernelIdeal.HostFold.head_mat m ρ c)
    (Cert.KernelIdeal.HostMid.mid_agg m ρ c) (Cert.KernelIdeal.HostMid.mid_wgt m ρ c) (Cert.KernelIdeal.HostMid.mid_mat m ρ c)
    (Cert.KernelIdeal.StatsValue.final_sum (V5 m ρ) c) (Cert.KernelIdeal.StatsValue.final_sq (V5 m ρ) c)
    (Cert.KernelIdeal.HostMid.mid_mean m ρ c) (Cert.KernelIdeal.HostMid.mid_var m ρ c)
    (Cert.KernelIdeal.HostMid.mid_gam m ρ c) (Cert.KernelIdeal.HostMid.mid_bet m ρ c) i

end Value

theorem algebraic [Cert.KernelIdeal.Facts] [Cert.ReferenceIdeal.Facts] [hp : Cert.Pre_finite_inputs.Facts] :
    Cert.algebraic_KernelIdeal_ReferenceIdeal := by
  intro m ρ m' ρ' hpre hagree
  refine ⟨fun c => Cert.KernelIdeal.Gen.W8 m ρ c (Proc.devRef .tc Cert.KernelIdeal.main_v36),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.RealEntries.pre_real _ _ _ _ _ _ (hpre c)
  rw [Cert.ReferenceIdeal.Read.val_main_v61_eq, (hagree c).1, (hagree c).2.1, (hagree c).2.2.1, (hagree c).2.2.2.1,
    (hagree c).2.2.2.2.1, (hagree c).2.2.2.2.2]
  funext i
  exact (Cert.RefSide.ref_value _ _ _ _ _ _ h0 h1 i).trans (kernel_value m ρ c i).symm

end Cert.Proof.Claims

end
-- ==== Proof.lean ====
/-
  The certificate for a graph-convolution layer followed by a linear map, batch normalization, a rectifier and
  row normalization: a kernel in two pipelined regions (column statistics in one pass over five stretches of
  10000 rows; then standardize, scale, shift, rectify and divide each row by its length) against the plain
  formulation (whole-column mean and mean squared deviation).

  The frames, the empty idealization ledger and the value claim are proved in Proof/Claims.lean; here they are
  assembled behind the witnesses of the programs' stated side conditions.
-/
import proofs.«181153_j61847529063045_2_alg».proof.Defs
import proofs.«181153_j61847529063045_2_alg».proof.Proof.Claims
import proofs.«181153_j61847529063045_2_alg».proof.Proof.Gen.Kernel
import proofs.«181153_j61847529063045_2_alg».proof.Proof.Gen.KernelIdeal
import proofs.«181153_j61847529063045_2_alg».proof.Proof.Gen.ReferenceIdeal
import proofs.«181153_j61847529063045_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
